-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S64x16 .f32) (main_arg9 : FVec F S64x16 .f32) (main_arg10 : FVec F S16 .f32) (main_v33 : IVec S_ 1) : IVec S_ 1 :=
  let main_v34 : FVec F S64x16 .f32 := Host.absf main_arg8
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S64x16 .f32 := Host.absf main_arg9
  let main_cst_14 : FVec F S_ .f32 := constant S_ .f32 0x7F800000#32
  let main_v40 : FVec F S64x16 .f32 := broadcastInDim S64x16 ![] bcast_S_S64x16 main_cst_14
  let main_v41 : IVec S64x16 1 := cmpf .olt main_v39 main_v40
  let main_c_15 : IVec S_ 1 := constantI S_ 1 1#1
  let main_v42 : IVec S_ 1 := (fun x v => Host.reduce IntOp.andi x v reducesTo_S64x16_S_d0_1 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg5 : FVec F S64x64 .f32) (main_arg6 : FVec F S64x64 .f32) (main_arg7 : FVec F S64 .f32) (main_arg8 : FVec F S64x16 .f32) (main_arg9 : FVec F S64x16 .f32) (main_arg10 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x1600000 32) (main_arg2 : FVec F S64x64 .f32) (main_arg3 : FVec F S64x64 .f32) (main_arg4 : FVec F S64 .f32) (main_arg5 : FVec F S64x64 .f32) (main_arg6 : FVec F S64x64 .f32) (main_arg7 : FVec F S64 .f32) (main_arg8 : FVec F S64x16 .f32) (main_arg9 : FVec F S64x16 .f32) (main_arg10 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1x64 : Shape := ⟨2, ![1, 64]⟩
abbrev S10000x64 : Shape := ⟨2, ![10000, 64]⟩
abbrev S1x16 : Shape := ⟨2, ![1, 16]⟩
abbrev S100000x16 : Shape := ⟨2, ![100000, 16]⟩
abbrev S10000x16 : Shape := ⟨2, ![10000, 16]⟩

abbrev nBuf : Space → Nat
  | .hbm => 106
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x16, .f32⟩
  | .hbm, ⟨9, _⟩ => ⟨S64x16, .f32⟩
  | .hbm, ⟨10, _⟩ => ⟨S16, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000, .f32⟩
  | .hbm, ⟨41, _⟩ => ⟨S1600000, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000, .f32⟩
  | .hbm, ⟨51, _⟩ => ⟨S1600000, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x64, .f32⟩
  | .hbm, ⟨61, _⟩ => ⟨S1600000x1, .f32⟩
  | .hbm, ⟨62, _⟩ => ⟨S1600000x64, .f32⟩
  | .hbm, ⟨63, _⟩ => ⟨S1600000x64, .f32⟩
  | .hbm, ⟨64, _⟩ => ⟨S_, .f32⟩
  | .hbm, ⟨65, _⟩ => ⟨S100000x64, .f32⟩
  | .hbm, ⟨66, _⟩ => ⟨S1600000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x64, .f32⟩
  | .hbm, ⟨79, _⟩ => ⟨S1600000x1, .f32⟩
  | .hbm, ⟨80, _⟩ => ⟨S1600000x64, .f32⟩
  | .hbm, ⟨81, _⟩ => ⟨S1600000x64, .f32⟩
  | .hbm, ⟨82, _⟩ => ⟨S_, .f32⟩
  | .hbm, ⟨83, _⟩ => ⟨S100000x64, .f32⟩
  | .hbm, ⟨84, _⟩ => ⟨S1600000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000x64, .f32⟩
  | .hbm, ⟨97, _⟩ => ⟨S1600000x1, .f32⟩
  | .hbm, ⟨98, _⟩ => ⟨S1600000x64, .f32⟩
  | .hbm, ⟨99, _⟩ => ⟨S1600000x64, .f32⟩
  | .hbm, ⟨100, _⟩ => ⟨S_, .f32⟩
  | .hbm, ⟨101, _⟩ => ⟨S100000x64, .f32⟩
  | .hbm, ⟨102, _⟩ => ⟨S1600000x1, .i32⟩
  | .hbm, ⟨103, _⟩ => ⟨S100000x64, .f32⟩
  | .hbm, ⟨104, _⟩ => ⟨S1x16, .f32⟩
  | .hbm, ⟨105, _⟩ => ⟨S100000x16, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x16, .f32⟩
  | .local _ .vmem, ⟨23, _⟩ => ⟨S64x16, .f32⟩
  | .local _ .vmem, ⟨24, _⟩ => ⟨S1x16, .f32⟩
  | .local _ .vmem, ⟨25, _⟩ => ⟨S10000x16, .f32⟩
  | .local _ .vmem, ⟨26, _⟩ => ⟨S10000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_c_6 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_v30 : Ref sig .tc := ⟨.hbm, 53, rfl⟩
abbrev main_v31 : Ref sig .tc := ⟨.hbm, 54, rfl⟩
abbrev main_c_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_10 : Ref sig .tc := ⟨.hbm, 70, rfl⟩
abbrev main_v45 : Ref sig .tc := ⟨.hbm, 71, rfl⟩
abbrev main_v46 : Ref sig .tc := ⟨.hbm, 72, rfl⟩
abbrev main_c_11 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_12 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_c_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_15 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x16.size a ≤ S64x16.size a
  hwx2_2 : ∀ i : grid2.Coords, EltTy.bits .f32 = 32 ∨ (Rect.block (s := S64x16) S64x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x16.size a ≤ S64x16.size a
  hwx2_3 : ∀ i : grid2.Coords, EltTy.bits .f32 = 32 ∨ (Rect.block (s := S64x16) S64x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x16.size a ≤ S100000x16.size a
  hwx2_5 : ∀ i : grid2.Coords, EltTy.bits .f32 = 32 ∨ (Rect.block (s := S100000x16) S10000x16.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v44) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v59) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v59) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v72) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v73) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v74) S10000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1x64 : Shape := ⟨2, ![1, 64]⟩
abbrev S100000x16 : Shape := ⟨2, ![100000, 16]⟩
abbrev S1x16 : Shape := ⟨2, ![1, 16]⟩

abbrev nBuf : Space → Nat
  | .hbm => 124
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x16, .f32⟩
  | .hbm, ⟨9, _⟩ => ⟨S64x16, .f32⟩
  | .hbm, ⟨10, _⟩ => ⟨S16, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000, .f32⟩
  | .hbm, ⟨41, _⟩ => ⟨S1600000, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000, .f32⟩
  | .hbm, ⟨51, _⟩ => ⟨S1600000, .f32⟩
  | .hbm, ⟨52, _⟩ => ⟨S1600000x1, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x64, .f32⟩
  | .hbm, ⟨62, _⟩ => ⟨S1600000x64, .f32⟩
  | .hbm, ⟨63, _⟩ => ⟨S1600000x64, .f32⟩
  | .hbm, ⟨64, _⟩ => ⟨S_, .f32⟩
  | .hbm, ⟨65, _⟩ => ⟨S100000x64, .f32⟩
  | .hbm, ⟨66, _⟩ => ⟨S1600000x1, .i32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S_, .f32⟩
  | .hbm, ⟨75, _⟩ => ⟨S100000x64, .f32⟩
  | .hbm, ⟨76, _⟩ => ⟨S100000x64, .f32⟩
  | .hbm, ⟨77, _⟩ => ⟨S1600000x1, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000x64, .f32⟩
  | .hbm, ⟨87, _⟩ => ⟨S1600000x64, .f32⟩
  | .hbm, ⟨88, _⟩ => ⟨S1600000x64, .f32⟩
  | .hbm, ⟨89, _⟩ => ⟨S_, .f32⟩
  | .hbm, ⟨90, _⟩ => ⟨S100000x64, .f32⟩
  | .hbm, ⟨91, _⟩ => ⟨S1600000x1, .i32⟩
  | .hbm, ⟨92, _⟩ => ⟨S100000x64, .f32⟩
  | .hbm, ⟨93, _⟩ => ⟨S100000x64, .f32⟩
  | .hbm, ⟨94, _⟩ => ⟨S100000x64, .f32⟩
  | .hbm, ⟨95, _⟩ => ⟨S100000x64, .f32⟩
  | .hbm, ⟨96, _⟩ => ⟨S1x64, .f32⟩
  | .hbm, ⟨97, _⟩ => ⟨S100000x64, .f32⟩
  | .hbm, ⟨98, _⟩ => ⟨S100000x64, .f32⟩
  | .hbm, ⟨99, _⟩ => ⟨S_, .f32⟩
  | .hbm, ⟨100, _⟩ => ⟨S100000x64, .f32⟩
  | .hbm, ⟨101, _⟩ => ⟨S100000x64, .f32⟩
  | .hbm, ⟨102, _⟩ => ⟨S1600000x1, .f32⟩
  | .hbm, ⟨103, _⟩ => ⟨S_, .i32⟩
  | .hbm, ⟨104, _⟩ => ⟨S1600000, .i32⟩
  | .hbm, ⟨105, _⟩ => ⟨S1600000, .i1⟩
  | .hbm, ⟨106, _⟩ => ⟨S_, .i32⟩
  | .hbm, ⟨107, _⟩ => ⟨S1600000, .i32⟩
  | .hbm, ⟨108, _⟩ => ⟨S1600000, .i32⟩
  | .hbm, ⟨109, _⟩ => ⟨S1600000, .i32⟩
  | .hbm, ⟨110, _⟩ => ⟨S1600000x1, .i32⟩
  | .hbm, ⟨111, _⟩ => ⟨S1600000x64, .f32⟩
  | .hbm, ⟨112, _⟩ => ⟨S1600000x64, .f32⟩
  | .hbm, ⟨113, _⟩ => ⟨S1600000x64, .f32⟩
  | .hbm, ⟨114, _⟩ => ⟨S_, .f32⟩
  | .hbm, ⟨115, _⟩ => ⟨S100000x64, .f32⟩
  | .hbm, ⟨116, _⟩ => ⟨S1600000x1, .i32⟩
  | .hbm, ⟨117, _⟩ => ⟨S100000x64, .f32⟩
  | .hbm, ⟨118, _⟩ => ⟨S100000x16, .f32⟩
  | .hbm, ⟨119, _⟩ => ⟨S100000x16, .f32⟩
  | .hbm, ⟨120, _⟩ => ⟨S100000x16, .f32⟩
  | .hbm, ⟨121, _⟩ => ⟨S1x16, .f32⟩
  | .hbm, ⟨122, _⟩ => ⟨S100000x16, .f32⟩
  | .hbm, ⟨123, _⟩ => ⟨S100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_c_6 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_12 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_call2_cst : Ref sig .tc := ⟨.hbm, 99, rfl⟩
abbrev main_call2_v0 : Ref sig .tc := ⟨.hbm, 100, rfl⟩
abbrev main_v69 : Ref sig .tc := ⟨.hbm, 101, rfl⟩
abbrev main_v70 : Ref sig .tc := ⟨.hbm, 102, rfl⟩
abbrev main_c_13 : Ref sig .tc := ⟨.hbm, 103, rfl⟩
abbrev main_v71 : Ref sig .tc := ⟨.hbm, 104, rfl⟩
abbrev main_v72 : Ref sig .tc := ⟨.hbm, 105, rfl⟩
abbrev main_c_14 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_15 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.KernelRun.lean ====
/-
  The idealized kernel's run with its result named.

  From any memory with zero counters, every weakly fair execution of the program on the TensorCores terminates without
  a fault, its argument arrays end as launched, and its result array ends holding what the fold of the program's
  segments leaves there: the third region's output array after its ten write-backs, the region entered from the buffers
  as the host operations before it and the two earlier regions left them. The run is the launch of the program's eight
  segments (five stretches of host operations and the three regions); at its end every buffer that outlives a region
  holds the fold's last contents, and the result array is one of them.
-/
import proofs.«117352_j15839839387779_1_alg».proof.Proof.Gen.KernelIdeal.Frame

set_option maxRecDepth 16384

noncomputable section

namespace Cert.KernelIdeal.ValueRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- finding the launch theorem's implicit arguments takes unfolding plain definitions in a metavariable's type
set_option backward.isDefEq.respectTransparency.types false in
/-- The run: the result array at the fold's last contents, the arguments unchanged. -/
theorem run : θ_run defs (onTc (τ := τ) (main (F := F))) ⟨m, fun _ => 0, ρ⟩ (fun r => ∀ c : Dev nD,
      r.2.mem ((c.tc : Thread nD τ).loc main_v74) = W8 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v74 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.ValueRun

end
-- ==== Proof.LibGraphLayer.lean ====
/-
  The mathematics of one graph-convolution layer, entry by entry, at the ideal values, and its two spellings.

  For a matrix x (M rows, K columns) and a column n (M rows, one column), `scaleRows x n` multiplies row a of x by the
  one entry n(a, 0). For a matrix y (M rows, K columns), a weight matrix W (K rows, N columns) and a row b (one row, N
  columns), `affine y W b` has at (a, q) the value (∑ c, y(a, c) · W(c, q)) + b(0, q). `ramp` is the maximum with the
  extended real the word of +0.0 denotes, entry by entry. The operations are kept in exactly this order and association:
  no identity of the extended reals is used, only the reading of each array operation at an index.

  Each of the three is read in two spellings. On a tile of rows: the column is broadcast across the tile's columns, the
  two factors of the product are rounded to bf16 (the identity at the ideal values) and multiplied into a zero
  accumulator, the bias is a [1, N] row broadcast down the tile, and the zero of the maximum is a scalar spread over the
  tile. On a whole array: the column is a vector of shape [M] broadcast first to [M, 1] and then across the columns, the
  product is the host's, the bias is a vector of shape [N] broadcast to one row and then down the rows, and the zero is
  a scalar broadcast to the array's shape. A vector reshaped to a column (or to a row) is the same column (row).

  Every entry of `scaleRows` and of `affine` reads one row of its first operand only, so a block of rows of the value is
  the same function of the same rows: that is what lets a program compute it block by block.

  `twoLayer` is the two-layer network: with an aggregation `agg` of node rows along the graph's edges left abstract,
  layer(x) = affine (scaleRows (agg (scaleRows x ns)) nd) W b, the first layer followed by `ramp`.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.GraphLayer

open Idealize.ShloMosaic Idealize.ShloMosaic.ValueIdx

variable {M K N : Nat}

/-- The extended real that the word of +0.0 denotes, kept as its word: both programs write the same word. -/
abbrev zeroWord : EReal := Ideal.ofBits .f32 0x00000000#32

/-! ## The functions -/

/-- Row a of x multiplied by the column's entry n(a, 0). -/
def scaleRows (x : FVec Ideal ⟨2, ![M, K]⟩ .f32) (n : FVec Ideal ⟨2, ![M, 1]⟩ .f32) : FVec Ideal ⟨2, ![M, K]⟩ .f32 :=
  fun i => x i * n (ix2 (show Fin M from i 0) (0 : Fin 1))

theorem scaleRows_apply (x : FVec Ideal ⟨2, ![M, K]⟩ .f32) (n : FVec Ideal ⟨2, ![M, 1]⟩ .f32) (a : Fin M) (q : Fin K) :
    scaleRows x n (ix2 a q) = x (ix2 a q) * n (ix2 a (0 : Fin 1)) := rfl

/-- The product with W plus the bias row, entry by entry. -/
def affine (y : FVec Ideal ⟨2, ![M, K]⟩ .f32) (W : FVec Ideal ⟨2, ![K, N]⟩ .f32) (b : FVec Ideal ⟨2, ![1, N]⟩ .f32) :
    FVec Ideal ⟨2, ![M, N]⟩ .f32 :=
  fun i => (∑ c : Fin K, y (ix2 (show Fin M from i 0) c) * W (ix2 c (show Fin N from i 1)))
    + b (ix2 (0 : Fin 1) (show Fin N from i 1))

theorem affine_apply (y : FVec Ideal ⟨2, ![M, K]⟩ .f32) (W : FVec Ideal ⟨2, ![K, N]⟩ .f32) (b : FVec Ideal ⟨2, ![1, N]⟩ .f32)
    (a : Fin M) (q : Fin N) :
    affine y W b (ix2 a q) = (∑ c : Fin K, y (ix2 a c) * W (ix2 c q)) + b (ix2 (0 : Fin 1) q) := rfl

/-- The maximum with zero, entry by entry. -/
def ramp (a : FVec Ideal ⟨2, ![M, K]⟩ .f32) : FVec Ideal ⟨2, ![M, K]⟩ .f32 := fun i => max (a i) zeroWord

theorem ramp_apply (a : FVec Ideal ⟨2, ![M, K]⟩ .f32) (i : (⟨2, ![M, K]⟩ : Shape).Idx) : ramp a i = max (a i) zeroWord := rfl

/-- The two-layer network over an abstract aggregation of node rows. -/
def twoLayer {D H E : Nat} (agg : FVec Ideal ⟨2, ![M, D]⟩ .f32 → FVec Ideal ⟨2, ![M, D]⟩ .f32)
    (agg' : FVec Ideal ⟨2, ![M, H]⟩ .f32 → FVec Ideal ⟨2, ![M, H]⟩ .f32)
    (x : FVec Ideal ⟨2, ![M, D]⟩ .f32) (ns nd : FVec Ideal ⟨2, ![M, 1]⟩ .f32)
    (W1 : FVec Ideal ⟨2, ![D, H]⟩ .f32) (b1 : FVec Ideal ⟨2, ![1, H]⟩ .f32)
    (W2 : FVec Ideal ⟨2, ![H, E]⟩ .f32) (b2 : FVec Ideal ⟨2, ![1, E]⟩ .f32) : FVec Ideal ⟨2, ![M, E]⟩ .f32 :=
  affine (scaleRows (agg' (scaleRows (ramp (affine (scaleRows (agg (scaleRows x ns)) nd) W1 b1)) ns)) nd) W2 b2

/-! ## A column broadcast across the columns, a vector made a column, a vector made a row -/

/-- An [M, 1] column broadcast to [M, K] reads, at (a, q), the column's entry at row a. -/
theorem broadcastTo_a1_ab_apply (v : (⟨2, ![M, 1]⟩ : Shape).Idx → EReal) (h : (⟨2, ![M, 1]⟩ : Shape).Broadcasts ⟨2, ![M, K]⟩)
    (a : Fin M) (q : Fin K) : broadcastTo ⟨2, ![M, K]⟩ v h (ix2 a q) = v (ix2 a (0 : Fin 1)) := by
  refine broadcastTo_apply v h (ix2 a q) (ix2 a (0 : Fin 1)) fun ax => ?_
  match ax with
  | ⟨0, _⟩ =>
    show a.val = if M = 1 then 0 else a.val
    split
    · have := a.isLt; omega
    · rfl
  | ⟨1, _⟩ =>
    show (0 : Nat) = if 1 = 1 then 0 else q.val
    rfl

/-- A vector of shape [M] reshaped to a column [M, 1] reads, at (a, 0), the vector's entry a. -/
theorem shapeCast_a_a1_apply (v : (⟨1, ![M]⟩ : Shape).Idx → EReal) (h : (⟨1, ![M]⟩ : Shape).ShapeCasts ⟨2, ![M, 1]⟩)
    (a : Fin M) (u : Fin 1) : shapeCast ⟨2, ![M, 1]⟩ v h (ix2 a u) = v (ix1 a) :=
  shapeCast_apply v h _ _ (by
    have hu : u.val = 0 := by omega
    rw [Shape.rowMajor_val_two, Shape.rowMajor_val_one]
    show a.val = a.val * 1 + u.val
    rw [hu, Nat.mul_one, Nat.add_zero])

/-- A vector of shape [M] broadcast to a column [M, 1] along axis 0 reads, at (a, 0), the vector's entry a. -/
theorem broadcastInDim_a_a1_apply (v : (⟨1, ![M]⟩ : Shape).Idx → EReal)
    (h : (⟨1, ![M]⟩ : Shape).BroadcastsInDim ⟨2, ![M, 1]⟩ ![0]) (a : Fin M) (u : Fin 1) :
    broadcastInDim ⟨2, ![M, 1]⟩ ![0] h v (ix2 a u) = v (ix1 a) :=
  broadcastInDim_apply (![0] : Fin 1 → Fin 2) h v (ix2 a u) (ix1 a) (fun ax => by
    match ax with
    | ⟨0, _⟩ =>
      show a.val = if M = 1 then 0 else a.val
      split
      · have := a.isLt; omega
      · rfl)

/-- A vector of shape [N] broadcast to a row [1, N] along axis 1 reads, at (0, q), the vector's entry q. -/
theorem broadcastInDim_b_1b_apply (v : (⟨1, ![N]⟩ : Shape).Idx → EReal)
    (h : (⟨1, ![N]⟩ : Shape).BroadcastsInDim ⟨2, ![1, N]⟩ ![1]) (u : Fin 1) (q : Fin N) :
    broadcastInDim ⟨2, ![1, N]⟩ ![1] h v (ix2 u q) = v (ix1 q) :=
  broadcastInDim_apply (![1] : Fin 1 → Fin 2) h v (ix2 u q) (ix1 q) (fun ax => by
    match ax with
    | ⟨0, _⟩ =>
      show q.val = if N = 1 then 0 else q.val
      split
      · have := q.isLt; omega
      · rfl)

/-- A column [M, 1] broadcast to [M, K] along axes 0 and 1 reads, at (a, q), the column's entry at row a. -/
theorem broadcastInDim_a1_ab_apply (v : (⟨2, ![M, 1]⟩ : Shape).Idx → EReal)
    (h : (⟨2, ![M, 1]⟩ : Shape).BroadcastsInDim ⟨2, ![M, K]⟩ ![0, 1]) (a : Fin M) (q : Fin K) :
    broadcastInDim ⟨2, ![M, K]⟩ ![0, 1] h v (ix2 a q) = v (ix2 a (0 : Fin 1)) :=
  broadcastInDim_apply (![0, 1] : Fin 2 → Fin 2) h v (ix2 a q) (ix2 a (0 : Fin 1)) (fun ax => by
    match ax with
    | ⟨0, _⟩ =>
      show a.val = if M = 1 then 0 else a.val
      split
      · have := a.isLt; omega
      · rfl
    | ⟨1, _⟩ =>
      show (0 : Nat) = if 1 = 1 then 0 else q.val
      rfl)

/-- A row [1, N] broadcast to [M, N] along axes 0 and 1 reads, at (a, q), the row's entry at column q. -/
theorem broadcastInDim_1b_ab_apply (v : (⟨2, ![1, N]⟩ : Shape).Idx → EReal)
    (h : (⟨2, ![1, N]⟩ : Shape).BroadcastsInDim ⟨2, ![M, N]⟩ ![0, 1]) (a : Fin M) (q : Fin N) :
    broadcastInDim ⟨2, ![M, N]⟩ ![0, 1] h v (ix2 a q) = v (ix2 (0 : Fin 1) q) :=
  broadcastInDim_apply (![0, 1] : Fin 2 → Fin 2) h v (ix2 a q) (ix2 (0 : Fin 1) q) (fun ax => by
    match ax with
    | ⟨0, _⟩ =>
      show (0 : Nat) = if 1 = 1 then 0 else a.val
      rfl
    | ⟨1, _⟩ =>
      show q.val = if N = 1 then 0 else q.val
      split
      · have := q.isLt; omega
      · rfl)

/-! ## The product into a zero accumulator, at an index -/

/-- The plain product of an M×K by a K×N matrix into a zero accumulator reads, at (a, b), the sum over the contracted
    coordinate of the products of the entries. -/
theorem matmul_plain_zero_apply {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-! ## The tile's spelling -/

/-- Rows scaled on a tile: the column broadcast across the tile's columns, then the product. -/
theorem tile_scale (h : (⟨2, ![M, K]⟩ : Shape).ShapeCasts ⟨2, ![M, K]⟩) (h' : (⟨2, ![M, 1]⟩ : Shape).ShapeCasts ⟨2, ![M, 1]⟩)
    (hb : (⟨2, ![M, 1]⟩ : Shape).Broadcasts ⟨2, ![M, K]⟩)
    (x : FVec Ideal ⟨2, ![M, K]⟩ .f32) (n : FVec Ideal ⟨2, ![M, 1]⟩ .f32) :
    mulf (shapeCast ⟨2, ![M, K]⟩ x h) (broadcastTo ⟨2, ![M, K]⟩ (shapeCast ⟨2, ![M, 1]⟩ n h') hb) = scaleRows x n := by
  rw [shapeCast_self x h, shapeCast_self n h']
  funext j
  obtain ⟨a, q, rfl⟩ : ∃ (a : Fin M) (q : Fin K), j = ix2 a q := ⟨j 0, j 1, eq_ix2 j⟩
  rw [scaleRows_apply, mulf_apply, broadcastTo_a1_ab_apply n hb]

/-- The product with the weights and the bias row on a tile: the two factors rounded to bf16 (the identity at the
    ideal values) and multiplied into a zero accumulator, then the bias row broadcast down the tile and added. -/
theorem tile_affine (D : DotDims ⟨2, ![M, K]⟩ ⟨2, ![K, N]⟩ ⟨2, ![M, N]⟩) (hD : D = DotDims.plain M K N)
    (hbits : FTy.bits .bf16 < FTy.bits .f32)
    (h1 : (⟨2, ![1, N]⟩ : Shape).ShapeCasts ⟨2, ![1, N]⟩) (hb : (⟨2, ![1, N]⟩ : Shape).Broadcasts ⟨2, ![M, N]⟩)
    (y : FVec Ideal ⟨2, ![M, K]⟩ .f32) (W : FVec Ideal ⟨2, ![K, N]⟩ .f32) (b : FVec Ideal ⟨2, ![1, N]⟩ .f32) :
    addf (matmul D none (truncf .bf16 y hbits) (truncf .bf16 W hbits) (constant (F := Ideal) ⟨2, ![M, N]⟩ .f32 0x00000000#32))
        (broadcastTo ⟨2, ![M, N]⟩ (shapeCast ⟨2, ![1, N]⟩ b h1) hb)
      = affine y W b := by
  subst hD
  rw [shapeCast_self b h1]
  funext j
  obtain ⟨a, q, rfl⟩ : ∃ (a : Fin M) (q : Fin N), j = ix2 a q := ⟨j 0, j 1, eq_ix2 j⟩
  rw [affine_apply, addf_apply, matmul_plain_zero_apply, broadcastTo_1b_ab_apply b hb]
  rfl

/-- The maximum of a tile with a scalar zero word spread over the tile. -/
theorem tile_ramp (a : FVec Ideal ⟨2, ![M, K]⟩ .f32) :
    maximumf a (broadcast ⟨2, ![M, K]⟩ (Scalar.ofBits (F := Ideal) .f32 0x00000000#32)) = ramp a := by
  funext i
  rw [ramp_apply, maximumf_apply, broadcast_apply]
  rfl

/-! ## The whole array's spelling -/

/-- Rows scaled on the whole array: the vector made a column, the column broadcast across the columns, the product;
    the column is the vector reshaped. -/
theorem host_scale (h1 : (⟨1, ![M]⟩ : Shape).BroadcastsInDim ⟨2, ![M, 1]⟩ ![0])
    (h2 : (⟨2, ![M, 1]⟩ : Shape).BroadcastsInDim ⟨2, ![M, K]⟩ ![0, 1]) (hs : (⟨1, ![M]⟩ : Shape).ShapeCasts ⟨2, ![M, 1]⟩)
    (X : FVec Ideal ⟨2, ![M, K]⟩ .f32) (nv : FVec Ideal ⟨1, ![M]⟩ .f32) :
    mulf X (broadcastInDim ⟨2, ![M, K]⟩ ![0, 1] h2 (broadcastInDim ⟨2, ![M, 1]⟩ ![0] h1 nv))
      = scaleRows X (shapeCast ⟨2, ![M, 1]⟩ nv hs) := by
  funext j
  obtain ⟨a, q, rfl⟩ : ∃ (a : Fin M) (q : Fin K), j = ix2 a q := ⟨j 0, j 1, eq_ix2 j⟩
  rw [scaleRows_apply, mulf_apply, broadcastInDim_a1_ab_apply _ h2, broadcastInDim_a_a1_apply nv h1,
    shapeCast_a_a1_apply nv hs]

/-- The product with the weights and the bias on the whole array: the host's product, then the bias vector made a row,
    broadcast down the rows and added; the row is the vector reshaped. -/
theorem host_affine (D : DotDims ⟨2, ![M, K]⟩ ⟨2, ![K, N]⟩ ⟨2, ![M, N]⟩) (hD : D = DotDims.plain M K N)
    (h1 : (⟨1, ![N]⟩ : Shape).BroadcastsInDim ⟨2, ![1, N]⟩ ![1])
    (h2 : (⟨2, ![1, N]⟩ : Shape).BroadcastsInDim ⟨2, ![M, N]⟩ ![0, 1]) (hs : (⟨1, ![N]⟩ : Shape).ShapeCasts ⟨2, ![1, N]⟩)
    (Y : FVec Ideal ⟨2, ![M, K]⟩ .f32) (W : FVec Ideal ⟨2, ![K, N]⟩ .f32) (bv : FVec Ideal ⟨1, ![N]⟩ .f32) :
    addf (Host.dotGeneral D none Y W) (broadcastInDim ⟨2, ![M, N]⟩ ![0, 1] h2 (broadcastInDim ⟨2, ![1, N]⟩ ![1] h1 bv))
      = affine Y W (shapeCast ⟨2, ![1, N]⟩ bv hs) := by
  subst hD
  funext j
  obtain ⟨a, q, rfl⟩ : ∃ (a : Fin M) (q : Fin N), j = ix2 a q := ⟨j 0, j 1, eq_ix2 j⟩
  rw [affine_apply, addf_apply, StackMember.dotGeneral_plain_apply, broadcastInDim_1b_ab_apply _ h2,
    broadcastInDim_b_1b_apply bv h1, shapeCast_a_1a_apply bv hs]

/-- The maximum of the array with the scalar zero word broadcast to the array's shape. -/
theorem host_ramp (h0 : (⟨0, ![]⟩ : Shape).BroadcastsInDim ⟨2, ![M, K]⟩ ![]) (a : FVec Ideal ⟨2, ![M, K]⟩ .f32) :
    maximumf a (broadcastInDim ⟨2, ![M, K]⟩ ![] h0 (constant (F := Ideal) ⟨0, ![]⟩ .f32 0x00000000#32)) = ramp a := by
  funext j
  obtain ⟨p, q, rfl⟩ : ∃ (p : Fin M) (q : Fin K), j = ix2 p q := ⟨j 0, j 1, eq_ix2 j⟩
  rw [ramp_apply, maximumf_apply,
    broadcastInDim_apply (![] : Fin 0 → Fin 2) h0 _ (ix2 p q) ix0 (fun ax => ax.elim0)]
  rfl

/-! ## Row by row -/

/-- An entry of the scaled rows reads one entry of x and one of the column: if the block's entry (a, q) is X's entry
    (A, q) and the block column's entry a is the column's entry A, the two values agree. -/
theorem scaleRows_rows {R : Nat} (X : FVec Ideal ⟨2, ![M, K]⟩ .f32) (C : FVec Ideal ⟨2, ![M, 1]⟩ .f32)
    (xb : FVec Ideal ⟨2, ![R, K]⟩ .f32) (cb : FVec Ideal ⟨2, ![R, 1]⟩ .f32) (a : Fin R) (A : Fin M) (q : Fin K)
    (hx : xb (ix2 a q) = X (ix2 A q)) (hc : cb (ix2 a (0 : Fin 1)) = C (ix2 A (0 : Fin 1))) :
    scaleRows xb cb (ix2 a q) = scaleRows X C (ix2 A q) := by
  rw [scaleRows_apply, scaleRows_apply, hx, hc]

/-- An entry of the affine map reads one row of its first operand: if row a of the block is row A of Y, the two values
    agree. -/
theorem affine_rows {R : Nat} (Y : FVec Ideal ⟨2, ![M, K]⟩ .f32) (yb : FVec Ideal ⟨2, ![R, K]⟩ .f32)
    (W : FVec Ideal ⟨2, ![K, N]⟩ .f32) (b : FVec Ideal ⟨2, ![1, N]⟩ .f32) (a : Fin R) (A : Fin M) (q : Fin N)
    (hy : ∀ c : Fin K, yb (ix2 a c) = Y (ix2 A c)) :
    affine yb W b (ix2 a q) = affine Y W b (ix2 A q) := by
  have hs : (∑ c : Fin K, yb (ix2 a c) * W (ix2 c q)) = ∑ c : Fin K, Y (ix2 A c) * W (ix2 c q) :=
    Finset.sum_congr rfl fun c _ => by rw [hy c]
  rw [affine_apply, affine_apply, hs]

end Cert.GraphLayer

end
-- ==== Proof.ChebLayer.lean ====
/-
  One Chebyshev layer of order two, entry by entry, at the ideal values.

  For node features x and their aggregate t along the graph's edges (both M rows, K columns), two weight matrices W0
  and W1 (K rows, N columns) and a bias row b (one row, N columns), `cheb x t W0 W1 b` has at (a, q) the value
  ((∑ c, x(a, c) · W0(c, q)) + (∑ c, t(a, c) · W1(c, q))) + b(0, q): the two products are summed first and the bias is
  added last, in exactly this association, so no identity of the extended reals is used here, only the reading of each
  array operation at an index.

  The layer is read in two spellings. On a tile of rows the four factors are rounded to bf16 (the identity at the ideal
  values), each product goes into a zero accumulator, and the bias is a [1, N] row broadcast down the tile. On the whole
  array the products are the host's, and the bias is a vector of shape [N] made a row and then broadcast down the rows;
  the row is the vector reshaped.

  An entry in row a reads row a of x and row a of t only, so a block of rows of the value is the same function of the
  same rows of the two operands: that is what lets a program compute the layer block by block.
-/
import proofs.«117352_j15839839387779_1_alg».proof.Proof.LibGraphLayer

noncomputable section

namespace Cert.Cheb

open Idealize.ShloMosaic Idealize.ShloMosaic.ValueIdx Cert.GraphLayer

variable {M K N : Nat}

/-- The two products summed, plus the bias row, entry by entry. -/
def cheb (x t : FVec Ideal ⟨2, ![M, K]⟩ .f32) (W0 W1 : FVec Ideal ⟨2, ![K, N]⟩ .f32) (b : FVec Ideal ⟨2, ![1, N]⟩ .f32) :
    FVec Ideal ⟨2, ![M, N]⟩ .f32 :=
  fun i => ((∑ c : Fin K, x (ix2 (show Fin M from i 0) c) * W0 (ix2 c (show Fin N from i 1)))
      + (∑ c : Fin K, t (ix2 (show Fin M from i 0) c) * W1 (ix2 c (show Fin N from i 1))))
    + b (ix2 (0 : Fin 1) (show Fin N from i 1))

theorem cheb_apply (x t : FVec Ideal ⟨2, ![M, K]⟩ .f32) (W0 W1 : FVec Ideal ⟨2, ![K, N]⟩ .f32)
    (b : FVec Ideal ⟨2, ![1, N]⟩ .f32) (a : Fin M) (q : Fin N) :
    cheb x t W0 W1 b (ix2 a q)
      = ((∑ c : Fin K, x (ix2 a c) * W0 (ix2 c q)) + (∑ c : Fin K, t (ix2 a c) * W1 (ix2 c q))) + b (ix2 (0 : Fin 1) q) := rfl

/-! ## The tile's spelling -/

/-- The layer on a tile: the factors rounded to bf16 and multiplied into zero accumulators, the two products added,
    then the bias row broadcast down the tile and added. -/
theorem tile_cheb (D : DotDims ⟨2, ![M, K]⟩ ⟨2, ![K, N]⟩ ⟨2, ![M, N]⟩) (hD : D = DotDims.plain M K N)
    (hbits : FTy.bits .bf16 < FTy.bits .f32)
    (h1 : (⟨2, ![1, N]⟩ : Shape).ShapeCasts ⟨2, ![1, N]⟩) (hb : (⟨2, ![1, N]⟩ : Shape).Broadcasts ⟨2, ![M, N]⟩)
    (x t : FVec Ideal ⟨2, ![M, K]⟩ .f32) (W0 W1 : FVec Ideal ⟨2, ![K, N]⟩ .f32) (b : FVec Ideal ⟨2, ![1, N]⟩ .f32) :
    addf (addf
          (matmul D none (truncf .bf16 x hbits) (truncf .bf16 W0 hbits) (constant (F := Ideal) ⟨2, ![M, N]⟩ .f32 0x00000000#32))
          (matmul D none (truncf .bf16 t hbits) (truncf .bf16 W1 hbits) (constant (F := Ideal) ⟨2, ![M, N]⟩ .f32 0x00000000#32)))
        (broadcastTo ⟨2, ![M, N]⟩ (shapeCast ⟨2, ![1, N]⟩ b h1) hb)
      = cheb x t W0 W1 b := by
  subst hD
  rw [shapeCast_self b h1]
  funext j
  obtain ⟨a, q, rfl⟩ : ∃ (a : Fin M) (q : Fin N), j = ix2 a q := ⟨j 0, j 1, eq_ix2 j⟩
  rw [cheb_apply, addf_apply, addf_apply, matmul_plain_zero_apply, matmul_plain_zero_apply, broadcastTo_1b_ab_apply b hb]
  rfl

/-- The same with the aggregate first reshaped to its own shape (the identity). -/
theorem tile_cheb_t (D : DotDims ⟨2, ![M, K]⟩ ⟨2, ![K, N]⟩ ⟨2, ![M, N]⟩) (hD : D = DotDims.plain M K N)
    (hbits : FTy.bits .bf16 < FTy.bits .f32) (ht : (⟨2, ![M, K]⟩ : Shape).ShapeCasts ⟨2, ![M, K]⟩)
    (h1 : (⟨2, ![1, N]⟩ : Shape).ShapeCasts ⟨2, ![1, N]⟩) (hb : (⟨2, ![1, N]⟩ : Shape).Broadcasts ⟨2, ![M, N]⟩)
    (x t : FVec Ideal ⟨2, ![M, K]⟩ .f32) (W0 W1 : FVec Ideal ⟨2, ![K, N]⟩ .f32) (b : FVec Ideal ⟨2, ![1, N]⟩ .f32) :
    addf (addf
          (matmul D none (truncf .bf16 x hbits) (truncf .bf16 W0 hbits) (constant (F := Ideal) ⟨2, ![M, N]⟩ .f32 0x00000000#32))
          (matmul D none (truncf .bf16 (shapeCast ⟨2, ![M, K]⟩ t ht) hbits) (truncf .bf16 W1 hbits)
            (constant (F := Ideal) ⟨2, ![M, N]⟩ .f32 0x00000000#32)))
        (broadcastTo ⟨2, ![M, N]⟩ (shapeCast ⟨2, ![1, N]⟩ b h1) hb)
      = cheb x t W0 W1 b := by
  rw [shapeCast_self t ht]
  exact tile_cheb D hD hbits h1 hb x t W0 W1 b

/-- The same with both the features and the aggregate first reshaped to their own shape (the identity). -/
theorem tile_cheb_xt (D : DotDims ⟨2, ![M, K]⟩ ⟨2, ![K, N]⟩ ⟨2, ![M, N]⟩) (hD : D = DotDims.plain M K N)
    (hbits : FTy.bits .bf16 < FTy.bits .f32) (hx : (⟨2, ![M, K]⟩ : Shape).ShapeCasts ⟨2, ![M, K]⟩)
    (h1 : (⟨2, ![1, N]⟩ : Shape).ShapeCasts ⟨2, ![1, N]⟩) (hb : (⟨2, ![1, N]⟩ : Shape).Broadcasts ⟨2, ![M, N]⟩)
    (x t : FVec Ideal ⟨2, ![M, K]⟩ .f32) (W0 W1 : FVec Ideal ⟨2, ![K, N]⟩ .f32) (b : FVec Ideal ⟨2, ![1, N]⟩ .f32) :
    addf (addf
          (matmul D none (truncf .bf16 (shapeCast ⟨2, ![M, K]⟩ x hx) hbits) (truncf .bf16 W0 hbits)
            (constant (F := Ideal) ⟨2, ![M, N]⟩ .f32 0x00000000#32))
          (matmul D none (truncf .bf16 (shapeCast ⟨2, ![M, K]⟩ t hx) hbits) (truncf .bf16 W1 hbits)
            (constant (F := Ideal) ⟨2, ![M, N]⟩ .f32 0x00000000#32)))
        (broadcastTo ⟨2, ![M, N]⟩ (shapeCast ⟨2, ![1, N]⟩ b h1) hb)
      = cheb x t W0 W1 b := by
  rw [shapeCast_self x hx, shapeCast_self t hx]
  exact tile_cheb D hD hbits h1 hb x t W0 W1 b

/-! ## The whole array's spelling -/

/-- The layer on the whole array: the host's two products added, then the bias vector made a row, broadcast down the
    rows and added; the row is the vector reshaped. -/
theorem host_cheb (D : DotDims ⟨2, ![M, K]⟩ ⟨2, ![K, N]⟩ ⟨2, ![M, N]⟩) (hD : D = DotDims.plain M K N)
    (h1 : (⟨1, ![N]⟩ : Shape).BroadcastsInDim ⟨2, ![1, N]⟩ ![1])
    (h2 : (⟨2, ![1, N]⟩ : Shape).BroadcastsInDim ⟨2, ![M, N]⟩ ![0, 1]) (hs : (⟨1, ![N]⟩ : Shape).ShapeCasts ⟨2, ![1, N]⟩)
    (X T : FVec Ideal ⟨2, ![M, K]⟩ .f32) (W0 W1 : FVec Ideal ⟨2, ![K, N]⟩ .f32) (bv : FVec Ideal ⟨1, ![N]⟩ .f32) :
    addf (addf (Host.dotGeneral D none X W0) (Host.dotGeneral D none T W1))
        (broadcastInDim ⟨2, ![M, N]⟩ ![0, 1] h2 (broadcastInDim ⟨2, ![1, N]⟩ ![1] h1 bv))
      = cheb X T W0 W1 (shapeCast ⟨2, ![1, N]⟩ bv hs) := by
  subst hD
  funext j
  obtain ⟨a, q, rfl⟩ : ∃ (a : Fin M) (q : Fin N), j = ix2 a q := ⟨j 0, j 1, eq_ix2 j⟩
  rw [cheb_apply, addf_apply, addf_apply, StackMember.dotGeneral_plain_apply, StackMember.dotGeneral_plain_apply,
    broadcastInDim_1b_ab_apply _ h2, broadcastInDim_b_1b_apply bv h1, shapeCast_a_1a_apply bv hs]

/-! ## Row by row -/

/-- An entry of the layer reads one row of each of its first two operands: if row a of the two blocks is row A of the
    two arrays, the two values agree. -/
theorem cheb_rows {R : Nat} (X T : FVec Ideal ⟨2, ![M, K]⟩ .f32) (xb tb : FVec Ideal ⟨2, ![R, K]⟩ .f32)
    (W0 W1 : FVec Ideal ⟨2, ![K, N]⟩ .f32) (b : FVec Ideal ⟨2, ![1, N]⟩ .f32) (a : Fin R) (A : Fin M) (q : Fin N)
    (hx : ∀ c : Fin K, xb (ix2 a c) = X (ix2 A c)) (ht : ∀ c : Fin K, tb (ix2 a c) = T (ix2 A c)) :
    cheb xb tb W0 W1 b (ix2 a q) = cheb X T W0 W1 b (ix2 A q) := by
  have h0 : (∑ c : Fin K, xb (ix2 a c) * W0 (ix2 c q)) = ∑ c : Fin K, X (ix2 A c) * W0 (ix2 c q) :=
    Finset.sum_congr rfl fun c _ => by rw [hx c]
  have h1 : (∑ c : Fin K, tb (ix2 a c) * W1 (ix2 c q)) = ∑ c : Fin K, T (ix2 A c) * W1 (ix2 c q) :=
    Finset.sum_congr rfl fun c _ => by rw [ht c]
  rw [cheb_apply, cheb_apply, h0, h1]

/-- The maximum with zero, entry by entry, reads the one entry. -/
theorem ramp_rows {R : Nat} (Y : FVec Ideal ⟨2, ![M, N]⟩ .f32) (yb : FVec Ideal ⟨2, ![R, N]⟩ .f32) (a : Fin R) (A : Fin M)
    (q : Fin N) (hy : yb (ix2 a q) = Y (ix2 A q)) : ramp yb (ix2 a q) = ramp Y (ix2 A q) := by
  rw [ramp_apply, ramp_apply, hy]

/-! ## A block of consecutive rows -/

/-- A block of R consecutive rows starting at row `off`: if the block of x and of t at (a, c) is the array's entry
    (off + a, c), the layer of the blocks at (a, q) is the layer of the arrays at (off + a, q). The two embeddings are
    given by what they do to each coordinate. -/
theorem cheb_block {R : Nat} (off : Nat) (X T : FVec Ideal ⟨2, ![M, K]⟩ .f32) (xb tb : FVec Ideal ⟨2, ![R, K]⟩ .f32)
    (W0 W1 : FVec Ideal ⟨2, ![K, N]⟩ .f32) (b : FVec Ideal ⟨2, ![1, N]⟩ .f32)
    (ex : (⟨2, ![R, K]⟩ : Shape).Idx → (⟨2, ![M, K]⟩ : Shape).Idx)
    (eo : (⟨2, ![R, N]⟩ : Shape).Idx → (⟨2, ![M, N]⟩ : Shape).Idx)
    (hex0 : ∀ y, (ex y 0).val = off + (y 0).val) (hex1 : ∀ y, (ex y 1).val = (y 1).val)
    (heo0 : ∀ y, (eo y 0).val = off + (y 0).val) (heo1 : ∀ y, (eo y 1).val = (y 1).val)
    (hx : ∀ y, xb y = X (ex y)) (ht : ∀ y, tb y = T (ex y)) (j : (⟨2, ![R, N]⟩ : Shape).Idx) :
    cheb xb tb W0 W1 b j = cheb X T W0 W1 b (eo j) := by
  obtain ⟨a, q, rfl⟩ : ∃ (a : Fin R) (q : Fin N), j = ix2 a q := ⟨j 0, j 1, eq_ix2 j⟩
  have hlt : off + a.val < M := by
    have h : (eo (ix2 a q) 0).val < M := (eo (ix2 a q) 0).isLt
    have e : (eo (ix2 a q) 0).val = off + a.val := heo0 (ix2 a q)
    omega
  have eo_eq : eo (ix2 a q) = ix2 (⟨off + a.val, hlt⟩ : Fin M) q := by
    funext ax; apply Fin.ext
    match ax with
    | ⟨0, _⟩ => exact heo0 (ix2 a q)
    | ⟨1, _⟩ => exact heo1 (ix2 a q)
  have ex_eq : ∀ c : Fin K, ex (ix2 a c) = ix2 (⟨off + a.val, hlt⟩ : Fin M) c := fun c => by
    funext ax; apply Fin.ext
    match ax with
    | ⟨0, _⟩ => exact hex0 (ix2 a c)
    | ⟨1, _⟩ => exact hex1 (ix2 a c)
  rw [eo_eq]
  exact cheb_rows X T xb tb W0 W1 b a ⟨off + a.val, hlt⟩ q (fun c => by rw [hx, ex_eq]) (fun c => by rw [ht, ex_eq])

/-- The same block with the maximum with zero on top. -/
theorem ramp_cheb_block {R : Nat} (off : Nat) (X T : FVec Ideal ⟨2, ![M, K]⟩ .f32) (xb tb : FVec Ideal ⟨2, ![R, K]⟩ .f32)
    (W0 W1 : FVec Ideal ⟨2, ![K, N]⟩ .f32) (b : FVec Ideal ⟨2, ![1, N]⟩ .f32)
    (ex : (⟨2, ![R, K]⟩ : Shape).Idx → (⟨2, ![M, K]⟩ : Shape).Idx)
    (eo : (⟨2, ![R, N]⟩ : Shape).Idx → (⟨2, ![M, N]⟩ : Shape).Idx)
    (hex0 : ∀ y, (ex y 0).val = off + (y 0).val) (hex1 : ∀ y, (ex y 1).val = (y 1).val)
    (heo0 : ∀ y, (eo y 0).val = off + (y 0).val) (heo1 : ∀ y, (eo y 1).val = (y 1).val)
    (hx : ∀ y, xb y = X (ex y)) (ht : ∀ y, tb y = T (ex y)) (j : (⟨2, ![R, N]⟩ : Shape).Idx) :
    ramp (cheb xb tb W0 W1 b) j = ramp (cheb X T W0 W1 b) (eo j) := by
  rw [ramp_apply, ramp_apply, cheb_block off X T xb tb W0 W1 b ex eo hex0 hex1 heo0 heo1 hx ht j]

end Cert.Cheb

end
-- ==== Proof.Region0.lean ====
/-
  The first layer's region: what the array of hidden features holds when the region is left.

  The region runs over ten grid points. Point t reads rows 10000·t … 10000·t + 9999 of the node features x and of their
  aggregate along the edges, all of both weight matrices and the whole bias row, and writes back the same rows of the
  result. What it writes is the maximum with zero of the layer of its two blocks of rows; since an entry of the layer in
  row a reads row a of x and of the aggregate only, that block is rows 10000·t … of the layer of the whole arrays. The
  ten blocks of rows tile the 100000 rows, so the array ends holding the maximum with zero of the layer of the arrays as
  the region found them.
-/
import proofs.«117352_j15839839387779_1_alg».proof.Proof.Gen.KernelIdeal.Frame
import proofs.«117352_j15839839387779_1_alg».proof.Proof.ChebLayer
import Idealize.ShloMosaic.Lib.Pipeline.Value

set_option maxRecDepth 16384

noncomputable section

namespace Cert.KernelIdeal.Layer0

open Idealize.ShloMosaic Idealize.ShloMosaic.TcCoe Idealize.ShloMosaic.ValueIdx Idealize.SL.Sem
open Cert.KernelIdeal Cert.KernelIdeal.Gen Cert.GraphLayer Cert.Cheb
open Idealize.ShloMosaic.Pipeline (Dat)

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- What the result array holds when the region is left: the maximum with zero of the layer of the features, their
    aggregate, the two weight matrices and the bias row, as the region found them. -/
def G (c : Dev nD) : S100000x64.Idx → Elt Ideal .f32 :=
  ramp (cheb (M := 100000) (K := 64) (N := 64) (V c main_arg0) (V c main_v42) (V c main_arg2) (V c main_arg3) (V c main_v43))

/-- The body's stored value is the maximum with zero of the layer of the blocks it loaded. -/
theorem pay (x0 x1 : Vec Ideal S10000x64 .f32) (x2 x3 : Vec Ideal S64x64 .f32) (x4 : Vec Ideal S1x64 .f32) :
    k0_pay1 (F := Ideal) x0 x1 x2 x3 x4 = ramp (cheb (M := 10000) (K := 64) (N := 64) x0 x1 x2 x3 x4) := by
  unfold k0_pay1
  dsimp only
  exact (tile_ramp _).trans (congrArg ramp (tile_cheb_t dot_S10000x64_S64x64_S10000x64_1_0_0_1_n_n rfl bitsLt_bf16_f32
    shapeCasts_S10000x64_S10000x64 shapeCasts_S1x64_S1x64 broadcasts_S1x64_S10000x64 x0 x1 x2 x3 x4))

/-- The index maps over the ten points: the features, the aggregate and the result move together down the rows, one
    block of rows per point; the weights and the bias stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A window whose one block is the whole array reads the array itself. -/
theorem whole2 (c : Dev nD) (t : Fin cfg0.N) : iblk0 V c 2 t = V c main_arg2 := by
  obtain ⟨-, -, -, -, e4, e5, -⟩ := idx_facts t
  funext y
  show V c main_arg2 (((cfg0.win 2).blk t).view.emb y) = V c main_arg2 y
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega
theorem whole3 (c : Dev nD) (t : Fin cfg0.N) : iblk0 V c 3 t = V c main_arg3 := by
  obtain ⟨-, -, -, -, -, -, e6, e7, -⟩ := idx_facts t
  funext y
  show V c main_arg3 (((cfg0.win 3).blk t).view.emb y) = V c main_arg3 y
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega
theorem whole4 (c : Dev nD) (t : Fin cfg0.N) : iblk0 V c 4 t = V c main_v43 := by
  obtain ⟨-, -, -, -, -, -, -, -, e8, e9, -⟩ := idx_facts t
  funext y
  show V c main_v43 (((cfg0.win 4).blk t).view.emb y) = V c main_v43 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- WHAT POINT t WRITES BACK is block t of `G`: rows 10000·t … of the layer of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x64) hz, View.ld_unit_zero (S := S1x64) hz]
  rw [pay, whole2, whole3, whole4]
  obtain ⟨e0, e1, e2, e3, -, -, -, -, -, -, e10, e11⟩ := idx_facts t
  funext j
  exact ramp_cheb_block (M := 100000) (K := 64) (N := 64) (R := 10000) (t.val * 10000) (V c main_arg0) (V c main_v42) (iblk0 V c 0 t) (iblk0 V c 1 t)
    (V c main_arg2) (V c main_arg3) (V c main_v43)
    (fun y => ((cfg0.win 0).blk t).view.emb y) (fun y => ((cfg0.win 5).blk t).view.emb y)
    (fun y => by show win0_0.index t (0 : Fin 2) * 10000 + 1 * (y 0).val = t.val * 10000 + (y 0).val; omega)
    (fun y => by show win0_0.index t (1 : Fin 2) * 64 + 1 * (y 1).val = (y 1).val; omega)
    (fun y => by show win0_5.index t (0 : Fin 2) * 10000 + 1 * (y 0).val = t.val * 10000 + (y 0).val; omega)
    (fun y => by show win0_5.index t (1 : Fin 2) * 64 + 1 * (y 1).val = (y 1).val; omega)
    (fun y => rfl)
    (fun y => by
      show V c main_v42 (((cfg0.win 1).blk t).view.emb y) = V c main_v42 (((cfg0.win 0).blk t).view.emb y)
      refine congrArg _ (funext fun a => Fin.ext ?_)
      match a with
      | ⟨0, _⟩ => show win0_1.index t (0 : Fin 2) * 10000 + 1 * (y 0).val = win0_0.index t (0 : Fin 2) * 10000 + 1 * (y 0).val; omega
      | ⟨1, _⟩ => show win0_1.index t (1 : Fin 2) * 64 + 1 * (y 1).val = win0_0.index t (1 : Fin 2) * 64 + 1 * (y 1).val; omega)
    j

/-- An index of the array is in point t's block iff each coordinate is in the block's range on its axis. -/
theorem mem_blk (t : Fin cfg0.N) (i : S100000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v44).slice (win0_5.rect t)).set ↔ _
  rw [View.set_slice_whole, Rect.mem_set_unit]
  exact Iff.rfl

/-- Every row is in some point's block of rows: row r is in the block of point r / 10000. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : (i 0).val / 10000 < cfg0.N := by
    show (i 0).val / 10000 < grid0.N
    rw [N_0]; omega
  obtain ⟨-, -, -, -, -, -, -, -, -, -, e10, e11⟩ := idx_facts ⟨(i 0).val / 10000, hN⟩
  have e10' : win0_5.index ⟨(i 0).val / 10000, hN⟩ (0 : Fin 2) = (i 0).val / 10000 := e10
  refine ⟨⟨(i 0).val / 10000, hN⟩, flush0_5 _, ?_⟩
  rw [mem_blk]
  intro a
  match a with
  | ⟨0, _⟩ =>
    show win0_5.index ⟨(i 0).val / 10000, hN⟩ (0 : Fin 2) * 10000 ≤ (i 0).val
      ∧ (i 0).val < win0_5.index ⟨(i 0).val / 10000, hN⟩ (0 : Fin 2) * 10000 + 10000
    omega
  | ⟨1, _⟩ =>
    show win0_5.index ⟨(i 0).val / 10000, hN⟩ (1 : Fin 2) * 64 ≤ (i 1).val
      ∧ (i 1).val < win0_5.index ⟨(i 0).val / 10000, hN⟩ (1 : Fin 2) * 64 + 64
    omega

/-- THE ARRAY when the region is left. -/
theorem final (c : Dev nD) : (dat0 V c).arrAt 5 cfg0.N = G V c :=
  (dat0 V c).arrAt_eq_of_cover 5 (G V c) (fun t _ => flushed_eq V c t) cover

end Cert.KernelIdeal.Layer0

end
-- ==== Proof.Region1.lean ====
/-
  The second layer's region: what the array of hidden features holds when the region is left.

  As in the first layer's region, point t of the ten reads rows 10000·t … 10000·t + 9999 of the first layer's hidden
  features and of their aggregate along the edges, all of both weight matrices and the whole bias row, and writes back
  the same rows of the result: the maximum with zero of the layer of its two blocks of rows. An entry of the layer in row
  a reads row a of its two row operands only, so that block is rows 10000·t … of the layer of the whole arrays, and the
  ten blocks tile the 100000 rows: the array ends holding the maximum with zero of the layer of the arrays as the region
  found them.
-/
import proofs.«117352_j15839839387779_1_alg».proof.Proof.Gen.KernelIdeal.Frame
import proofs.«117352_j15839839387779_1_alg».proof.Proof.ChebLayer
import Idealize.ShloMosaic.Lib.Pipeline.Value

set_option maxRecDepth 16384

noncomputable section

namespace Cert.KernelIdeal.Layer1

open Idealize.ShloMosaic Idealize.ShloMosaic.TcCoe Idealize.ShloMosaic.ValueIdx Idealize.SL.Sem
open Cert.KernelIdeal Cert.KernelIdeal.Gen Cert.GraphLayer Cert.Cheb
open Idealize.ShloMosaic.Pipeline (Dat)

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- What the result array holds when the region is left: the maximum with zero of the layer of the features, their
    aggregate, the two weight matrices and the bias row, as the region found them. -/
def G (c : Dev nD) : S100000x64.Idx → Elt Ideal .f32 :=
  ramp (cheb (M := 100000) (K := 64) (N := 64) (V c main_v44) (V c main_v57) (V c main_arg5) (V c main_arg6) (V c main_v58))

/-- The body's stored value is the maximum with zero of the layer of the blocks it loaded. -/
theorem pay (x0 x1 : Vec Ideal S10000x64 .f32) (x2 x3 : Vec Ideal S64x64 .f32) (x4 : Vec Ideal S1x64 .f32) :
    k1_pay1 (F := Ideal) x0 x1 x2 x3 x4 = ramp (cheb (M := 10000) (K := 64) (N := 64) x0 x1 x2 x3 x4) := by
  unfold k1_pay1
  dsimp only
  exact (tile_ramp _).trans (congrArg ramp (tile_cheb_xt dot_S10000x64_S64x64_S10000x64_1_0_0_1_n_n rfl bitsLt_bf16_f32
    shapeCasts_S10000x64_S10000x64 shapeCasts_S1x64_S1x64 broadcasts_S1x64_S10000x64 x0 x1 x2 x3 x4))

/-- The index maps over the ten points: the features, the aggregate and the result move together down the rows, one
    block of rows per point; the weights and the bias stay at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A window whose one block is the whole array reads the array itself. -/
theorem whole2 (c : Dev nD) (t : Fin cfg1.N) : iblk1 V c 2 t = V c main_arg5 := by
  obtain ⟨-, -, -, -, e4, e5, -⟩ := idx_facts t
  funext y
  show V c main_arg5 (((cfg1.win 2).blk t).view.emb y) = V c main_arg5 y
  refine congrArg _ (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega
theorem whole3 (c : Dev nD) (t : Fin cfg1.N) : iblk1 V c 3 t = V c main_arg6 := by
  obtain ⟨-, -, -, -, -, -, e6, e7, -⟩ := idx_facts t
  funext y
  show V c main_arg6 (((cfg1.win 3).blk t).view.emb y) = V c main_arg6 y
  refine congrArg _ (funext fun a => Fin.ext ?_)
  match a with
  | ⟨0, _⟩ => show win1_3.index t (0 : Fin 2) * 64 + 1 * (y 0).val = (y 0).val; omega
  | ⟨1, _⟩ => show win1_3.index t (1 : Fin 2) * 64 + 1 * (y 1).val = (y 1).val; omega
theorem whole4 (c : Dev nD) (t : Fin cfg1.N) : iblk1 V c 4 t = V c main_v58 := by
  obtain ⟨-, -, -, -, -, -, -, -, e8, e9, -⟩ := idx_facts t
  funext y
  show V c main_v58 (((cfg1.win 4).blk t).view.emb y) = V c main_v58 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- WHAT POINT t WRITES BACK is block t of `G`: rows 10000·t … of the layer of the whole arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S10000x64) hz, View.ld_unit_zero (S := S64x64) hz, View.ld_unit_zero (S := S1x64) hz]
  rw [pay, whole2, whole3, whole4]
  obtain ⟨e0, e1, e2, e3, -, -, -, -, -, -, e10, e11⟩ := idx_facts t
  funext j
  exact ramp_cheb_block (M := 100000) (K := 64) (N := 64) (R := 10000) (t.val * 10000) (V c main_v44) (V c main_v57) (iblk1 V c 0 t) (iblk1 V c 1 t)
    (V c main_arg5) (V c main_arg6) (V c main_v58)
    (fun y => ((cfg1.win 0).blk t).view.emb y) (fun y => ((cfg1.win 5).blk t).view.emb y)
    (fun y => by show win1_0.index t (0 : Fin 2) * 10000 + 1 * (y 0).val = t.val * 10000 + (y 0).val; omega)
    (fun y => by show win1_0.index t (1 : Fin 2) * 64 + 1 * (y 1).val = (y 1).val; omega)
    (fun y => by show win1_5.index t (0 : Fin 2) * 10000 + 1 * (y 0).val = t.val * 10000 + (y 0).val; omega)
    (fun y => by show win1_5.index t (1 : Fin 2) * 64 + 1 * (y 1).val = (y 1).val; omega)
    (fun y => rfl)
    (fun y => by
      show V c main_v57 (((cfg1.win 1).blk t).view.emb y) = V c main_v57 (((cfg1.win 0).blk t).view.emb y)
      refine congrArg _ (funext fun a => Fin.ext ?_)
      match a with
      | ⟨0, _⟩ => show win1_1.index t (0 : Fin 2) * 10000 + 1 * (y 0).val = win1_0.index t (0 : Fin 2) * 10000 + 1 * (y 0).val; omega
      | ⟨1, _⟩ => show win1_1.index t (1 : Fin 2) * 64 + 1 * (y 1).val = win1_0.index t (1 : Fin 2) * 64 + 1 * (y 1).val; omega)
    j

/-- An index of the array is in point t's block iff each coordinate is in the block's range on its axis. -/
theorem mem_blk (t : Fin cfg1.N) (i : S100000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v59).slice (win1_5.rect t)).set ↔ _
  rw [View.set_slice_whole, Rect.mem_set_unit]
  exact Iff.rfl

/-- Every row is in some point's block of rows: row r is in the block of point r / 10000. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : (i 0).val / 10000 < cfg1.N := by
    show (i 0).val / 10000 < grid1.N
    rw [N_1]; omega
  obtain ⟨-, -, -, -, -, -, -, -, -, -, e10, e11⟩ := idx_facts ⟨(i 0).val / 10000, hN⟩
  have e10' : win1_5.index ⟨(i 0).val / 10000, hN⟩ (0 : Fin 2) = (i 0).val / 10000 := e10
  refine ⟨⟨(i 0).val / 10000, hN⟩, flush1_5 _, ?_⟩
  rw [mem_blk]
  intro a
  match a with
  | ⟨0, _⟩ =>
    show win1_5.index ⟨(i 0).val / 10000, hN⟩ (0 : Fin 2) * 10000 ≤ (i 0).val
      ∧ (i 0).val < win1_5.index ⟨(i 0).val / 10000, hN⟩ (0 : Fin 2) * 10000 + 10000
    omega
  | ⟨1, _⟩ =>
    show win1_5.index ⟨(i 0).val / 10000, hN⟩ (1 : Fin 2) * 64 ≤ (i 1).val
      ∧ (i 1).val < win1_5.index ⟨(i 0).val / 10000, hN⟩ (1 : Fin 2) * 64 + 64
    omega

/-- THE ARRAY when the region is left. -/
theorem final (c : Dev nD) : (dat1 V c).arrAt 5 cfg1.N = G V c :=
  (dat1 V c).arrAt_eq_of_cover 5 (G V c) (fun t _ => flushed_eq V c t) cover

end Cert.KernelIdeal.Layer1

end
-- ==== Proof.Region2.lean ====
/-
  The last layer's region: what the result array holds when the region is left.

  Point t of the ten reads rows 10000·t … 10000·t + 9999 of the second layer's hidden features and of their aggregate
  along the edges, all of both 64 × 16 weight matrices and the whole bias row of 16, and writes back the same rows of the
  result: the layer of its two blocks of rows, with no maximum on top. An entry of the layer in row a reads row a of its
  two row operands only, so that block is rows 10000·t … of the layer of the whole arrays, and the ten blocks tile the
  100000 rows: the array ends holding the layer of the arrays as the region found them.
-/
import proofs.«117352_j15839839387779_1_alg».proof.Proof.Gen.KernelIdeal.Frame
import proofs.«117352_j15839839387779_1_alg».proof.Proof.ChebLayer
import Idealize.ShloMosaic.Lib.Pipeline.Value

set_option maxRecDepth 16384

noncomputable section

namespace Cert.KernelIdeal.Layer2

open Idealize.ShloMosaic Idealize.ShloMosaic.TcCoe Idealize.ShloMosaic.ValueIdx Idealize.SL.Sem
open Cert.KernelIdeal Cert.KernelIdeal.Gen Cert.GraphLayer Cert.Cheb
open Idealize.ShloMosaic.Pipeline (Dat)

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- What the result array holds when the region is left: the layer of the hidden features, their
    aggregate, the two weight matrices and the bias row, as the region found them. -/
def G (c : Dev nD) : S100000x16.Idx → Elt Ideal .f32 :=
  (cheb (M := 100000) (K := 64) (N := 16) (V c main_v59) (V c main_v72) (V c main_arg8) (V c main_arg9) (V c main_v73))

/-- The body's stored value is the layer of the blocks it loaded. -/
theorem pay (x0 x1 : Vec Ideal S10000x64 .f32) (x2 x3 : Vec Ideal S64x16 .f32) (x4 : Vec Ideal S1x16 .f32) :
    k2_pay1 (F := Ideal) x0 x1 x2 x3 x4 = cheb (M := 10000) (K := 64) (N := 16) x0 x1 x2 x3 x4 := by
  unfold k2_pay1
  dsimp only
  exact tile_cheb_xt dot_S10000x64_S64x16_S10000x16_1_0_0_1_n_n rfl bitsLt_bf16_f32
    shapeCasts_S10000x64_S10000x64 shapeCasts_S1x16_S1x16 broadcasts_S1x16_S10000x16 x0 x1 x2 x3 x4

/-- The index maps over the ten points: the features, the aggregate and the result move together down the rows, one
    block of rows per point; the weights and the bias stay at their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- A window whose one block is the whole array reads the array itself. -/
theorem whole2 (c : Dev nD) (t : Fin cfg2.N) : iblk2 V c 2 t = V c main_arg8 := by
  obtain ⟨-, -, -, -, e4, e5, -⟩ := idx_facts t
  funext y
  show V c main_arg8 (((cfg2.win 2).blk t).view.emb y) = V c main_arg8 y
  refine congrArg _ (funext fun a => Fin.ext ?_)
  match a with
  | ⟨0, _⟩ => show win2_2.index t (0 : Fin 2) * 64 + 1 * (y 0).val = (y 0).val; omega
  | ⟨1, _⟩ => show win2_2.index t (1 : Fin 2) * 16 + 1 * (y 1).val = (y 1).val; omega
theorem whole3 (c : Dev nD) (t : Fin cfg2.N) : iblk2 V c 3 t = V c main_arg9 := by
  obtain ⟨-, -, -, -, -, -, e6, e7, -⟩ := idx_facts t
  funext y
  show V c main_arg9 (((cfg2.win 3).blk t).view.emb y) = V c main_arg9 y
  refine congrArg _ (funext fun a => Fin.ext ?_)
  match a with
  | ⟨0, _⟩ => show win2_3.index t (0 : Fin 2) * 64 + 1 * (y 0).val = (y 0).val; omega
  | ⟨1, _⟩ => show win2_3.index t (1 : Fin 2) * 16 + 1 * (y 1).val = (y 1).val; omega
theorem whole4 (c : Dev nD) (t : Fin cfg2.N) : iblk2 V c 4 t = V c main_v73 := by
  obtain ⟨-, -, -, -, -, -, -, -, e8, e9, -⟩ := idx_facts t
  funext y
  show V c main_v73 (((cfg2.win 4).blk t).view.emb y) = V c main_v73 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 16 + 1 * (y 1).val = (y 1).val; omega

/-- WHAT POINT t WRITES BACK is block t of `G`: rows 10000·t … of the layer of the whole arrays. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S10000x64) hz, View.ld_unit_zero (S := S64x16) hz, View.ld_unit_zero (S := S1x16) hz]
  rw [pay, whole2, whole3, whole4]
  obtain ⟨e0, e1, e2, e3, -, -, -, -, -, -, e10, e11⟩ := idx_facts t
  funext j
  exact cheb_block (M := 100000) (K := 64) (N := 16) (R := 10000) (t.val * 10000) (V c main_v59) (V c main_v72) (iblk2 V c 0 t) (iblk2 V c 1 t)
    (V c main_arg8) (V c main_arg9) (V c main_v73)
    (fun y => ((cfg2.win 0).blk t).view.emb y) (fun y => ((cfg2.win 5).blk t).view.emb y)
    (fun y => by show win2_0.index t (0 : Fin 2) * 10000 + 1 * (y 0).val = t.val * 10000 + (y 0).val; omega)
    (fun y => by show win2_0.index t (1 : Fin 2) * 64 + 1 * (y 1).val = (y 1).val; omega)
    (fun y => by show win2_5.index t (0 : Fin 2) * 10000 + 1 * (y 0).val = t.val * 10000 + (y 0).val; omega)
    (fun y => by show win2_5.index t (1 : Fin 2) * 16 + 1 * (y 1).val = (y 1).val; omega)
    (fun y => rfl)
    (fun y => by
      show V c main_v72 (((cfg2.win 1).blk t).view.emb y) = V c main_v72 (((cfg2.win 0).blk t).view.emb y)
      refine congrArg _ (funext fun a => Fin.ext ?_)
      match a with
      | ⟨0, _⟩ => show win2_1.index t (0 : Fin 2) * 10000 + 1 * (y 0).val = win2_0.index t (0 : Fin 2) * 10000 + 1 * (y 0).val; omega
      | ⟨1, _⟩ => show win2_1.index t (1 : Fin 2) * 64 + 1 * (y 1).val = win2_0.index t (1 : Fin 2) * 64 + 1 * (y 1).val; omega)
    j

/-- An index of the array is in point t's block iff each coordinate is in the block's range on its axis. -/
theorem mem_blk (t : Fin cfg2.N) (i : S100000x16.Idx) :
    i ∈ ((cfg2.win 5).blk t).view.set ↔ ∀ a : Fin 2, win2_5.index t a * S10000x16.size a ≤ (i a).val
      ∧ (i a).val < win2_5.index t a * S10000x16.size a + S10000x16.size a := by
  show i ∈ ((View.whole main_v74).slice (win2_5.rect t)).set ↔ _
  rw [View.set_slice_whole, Rect.mem_set_unit]
  exact Iff.rfl

/-- Every row is in some point's block of rows: row r is in the block of point r / 10000. -/
theorem cover (i : S100000x16.Idx) :
    ∃ t : Fin cfg2.N, (cfg2.win 5).flush t = true ∧ i ∈ ((cfg2.win 5).blk t).view.set := by
  have hi0 : (i 0).val < 100000 := (i 0).isLt
  have hi1 : (i 1).val < 16 := (i 1).isLt
  have hN : (i 0).val / 10000 < cfg2.N := by
    show (i 0).val / 10000 < grid2.N
    rw [N_2]; omega
  obtain ⟨-, -, -, -, -, -, -, -, -, -, e10, e11⟩ := idx_facts ⟨(i 0).val / 10000, hN⟩
  have e10' : win2_5.index ⟨(i 0).val / 10000, hN⟩ (0 : Fin 2) = (i 0).val / 10000 := e10
  refine ⟨⟨(i 0).val / 10000, hN⟩, flush2_5 _, ?_⟩
  rw [mem_blk]
  intro a
  match a with
  | ⟨0, _⟩ =>
    show win2_5.index ⟨(i 0).val / 10000, hN⟩ (0 : Fin 2) * 10000 ≤ (i 0).val
      ∧ (i 0).val < win2_5.index ⟨(i 0).val / 10000, hN⟩ (0 : Fin 2) * 10000 + 10000
    omega
  | ⟨1, _⟩ =>
    show win2_5.index ⟨(i 0).val / 10000, hN⟩ (1 : Fin 2) * 16 ≤ (i 1).val
      ∧ (i 1).val < win2_5.index ⟨(i 0).val / 10000, hN⟩ (1 : Fin 2) * 16 + 16
    omega

/-- THE ARRAY when the region is left. -/
theorem final (c : Dev nD) : (dat2 V c).arrAt 5 cfg2.N = G V c :=
  (dat2 V c).arrAt_eq_of_cover 5 (G V c) (fun t _ => flushed_eq V c t) cover

end Cert.KernelIdeal.Layer2

end
-- ==== Proof.GraphOps.lean ====
/-
  The graph side of the network, named once.

  The edge list is a 2 × E array of node numbers: row 0 holds each edge's target row, row 1 its source column. A node
  number below zero is read from the end (100000 is added to it), as indexing does. The degree of a node is the number
  of edges whose row it is, a sum of ones scattered to the rows. Its inverse root is 1/√(max(degree, 1e-12)) where the
  degree is positive and zero elsewhere. The weight of an edge from column node to row node is minus the product of the
  two nodes' inverse-root degrees: the off-diagonal entry of the symmetrically normalised Laplacian.

  The aggregate of node features h along the edges gathers, for every edge, the feature row of its column node, scales
  it by the edge's weight, and adds it into the row of its row node: the product of that Laplacian with h, as a scatter
  of scaled gathered rows. One program writes each scaled row as (feature row) · weight and the other as
  weight · (feature row); on the extended reals the product commutes, with no condition of finiteness, so the two
  arrays of scaled rows are equal entry by entry and the two aggregates are the same array.

  A layer is then the two products summed plus the bias row (`Cert.Cheb.cheb`) of the features and their aggregate; a
  hidden layer takes the maximum with zero on top; the network is two hidden layers and a last layer without it.
-/
import proofs.«117352_j15839839387779_1_alg».proof.Proof.Gen.KernelIdeal
import proofs.«117352_j15839839387779_1_alg».proof.Proof.ChebLayer

noncomputable section

namespace Cert.KernelIdeal.Graph

open Idealize.ShloMosaic Idealize.ShloMosaic.ValueIdx Cert.KernelIdeal Cert.KernelIdeal.Gen Cert.GraphLayer Cert.Cheb

section AnyInstance

variable {F : FTy → Type} [FloatOps F]

/-- Row 0 of the edge list: each edge's row node. -/
def edgeRow (adj : (⟨S2x1600000, .i32⟩ : BufTy).Contents (Elt F)) : (⟨S1600000, .i32⟩ : BufTy).Contents (Elt F) :=
  shapeCast _ (extractStridedSlice S1x1600000 ![0, 0] adj slices_S2x1600000_S1x1600000_0_0) shapeCasts_S1x1600000_S1600000

/-- Row 1 of the edge list: each edge's column node. -/
def edgeCol (adj : (⟨S2x1600000, .i32⟩ : BufTy).Contents (Elt F)) : (⟨S1600000, .i32⟩ : BufTy).Contents (Elt F) :=
  shapeCast _ (extractStridedSlice S1x1600000 ![1, 0] adj slices_S2x1600000_S1x1600000_1_0) shapeCasts_S1x1600000_S1600000

/-- Node numbers as a column of start indices, a number below zero read from the end. -/
def wrap (v : (⟨S1600000, .i32⟩ : BufTy).Contents (Elt F)) : (⟨S1600000x1, .i32⟩ : BufTy).Contents (Elt F) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- The degree of every node: ones added into the edges' row nodes. -/
def deg (row : (⟨S1600000, .i32⟩ : BufTy).Contents (Elt F)) : FVec F S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 row)
    (broadcastInDim S1600000 ![] bcast_S_S1600000 (constant S_ .f32 0x3F800000#32))

/-- The inverse root of the degree where it is positive, zero elsewhere. -/
def invRootDeg (row : (⟨S1600000, .i32⟩ : BufTy).Contents (Elt F)) : FVec F S100000 .f32 :=
  select (cmpf (F := F) .ogt (deg row) (broadcastInDim S100000 ![] bcast_S_S100000 (constant S_ .f32 0x00000000#32)))
    (Host.rsqrt (maximumf (deg row) (broadcastInDim S100000 ![] bcast_S_S100000 (constant S_ .f32 0x2B8CBCCC#32))))
    (broadcastInDim S100000 ![] bcast_S_S100000 (id (constant S_ .f32 0x00000000#32)))

/-- The weight of every edge: minus the product of its two nodes' inverse-root degrees. -/
def edgeW (row col : (⟨S1600000, .i32⟩ : BufTy).Contents (Elt F)) : FVec F S1600000 .f32 :=
  mulf (Host.negf (Host.gather gather_S100000_S1600000x1_S1600000_n_0_n_n_0_1_1 (invRootDeg row) (wrap row)))
    (Host.gather gather_S100000_S1600000x1_S1600000_n_0_n_n_0_1_1 (invRootDeg row) (wrap col))

/-- The aggregate of the feature rows along the edges, each scaled row written (feature row) · weight. -/
def agg (row col : (⟨S1600000, .i32⟩ : BufTy).Contents (Elt F)) (w : FVec F S1600000 .f32) (h : FVec F S100000x64 .f32) :
    FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 row)
    (mulf (Host.gather gather_S100000x64_S1600000x1_S1600000x64_1_0_n_n_0_1_164 h (wrap col))
      (broadcastInDim S1600000x64 ![0, 1] bcast_S1600000x1_S1600000x64_0_1
        (broadcastInDim S1600000x1 ![0] bcast_S1600000_S1600000x1_0 w)))

/-- The same aggregate with each scaled row written weight · (feature row). -/
def aggFlip (row col : (⟨S1600000, .i32⟩ : BufTy).Contents (Elt F)) (w : FVec F S1600000 .f32) (h : FVec F S100000x64 .f32) :
    FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 row)
    (mulf (broadcastInDim S1600000x64 ![0, 1] bcast_S1600000x1_S1600000x64_0_1
        (broadcastInDim S1600000x1 ![0] bcast_S1600000_S1600000x1_0 w))
      (Host.gather gather_S100000x64_S1600000x1_S1600000x64_1_0_n_n_0_1_164 h (wrap col)))

end AnyInstance

/-! ## At the ideal values -/

/-- The product of two arrays commutes entry by entry on the extended reals. -/
theorem mulf_comm {S : Shape} (a b : FVec Ideal S .f32) : mulf a b = mulf b a := by
  funext i
  rw [mulf_apply, mulf_apply]
  exact mul_comm _ _

/-- The two spellings of the aggregate are one array. -/
theorem aggFlip_eq (row col : (⟨S1600000, .i32⟩ : BufTy).Contents (Elt Ideal)) (w : FVec Ideal S1600000 .f32)
    (h : FVec Ideal S100000x64 .f32) : aggFlip row col w h = agg row col w h := by
  unfold aggFlip agg
  rw [mulf_comm]

/-- A hidden layer: the maximum with zero of the layer of the features and their aggregate. -/
def hidden (row col : (⟨S1600000, .i32⟩ : BufTy).Contents (Elt Ideal)) (w : FVec Ideal S1600000 .f32)
    (h : FVec Ideal S100000x64 .f32) (W0 W1 : FVec Ideal S64x64 .f32) (b : FVec Ideal S64 .f32) : FVec Ideal S100000x64 .f32 :=
  ramp (cheb (M := 100000) (K := 64) (N := 64) h (agg row col w h) W0 W1 (shapeCast S1x64 b shapeCasts_S64_S1x64))

/-- The last layer: the layer of the features and their aggregate, 16 columns, no maximum. -/
def last (row col : (⟨S1600000, .i32⟩ : BufTy).Contents (Elt Ideal)) (w : FVec Ideal S1600000 .f32)
    (h : FVec Ideal S100000x64 .f32) (W0 W1 : FVec Ideal S64x16 .f32) (b : FVec Ideal S16 .f32) : FVec Ideal S100000x16 .f32 :=
  cheb (M := 100000) (K := 64) (N := 16) h (agg row col w h) W0 W1 (shapeCast S1x16 b shapeCasts_S16_S1x16)

/-- The network over given edge rows, columns and weights. -/
def netOn (row col : (⟨S1600000, .i32⟩ : BufTy).Contents (Elt Ideal)) (w : FVec Ideal S1600000 .f32)
    (x : FVec Ideal S100000x64 .f32) (W10 W11 : FVec Ideal S64x64 .f32) (b1 : FVec Ideal S64 .f32)
    (Wx0 Wx1 : FVec Ideal S64x64 .f32) (bx : FVec Ideal S64 .f32) (W20 W21 : FVec Ideal S64x16 .f32) (b2 : FVec Ideal S16 .f32) :
    FVec Ideal S100000x16 .f32 :=
  last row col w (hidden row col w (hidden row col w x W10 W11 b1) Wx0 Wx1 bx) W20 W21 b2

/-- THE NETWORK: the result as one function of the eleven arguments. -/
def net (x : FVec Ideal S100000x64 .f32) (adj : (⟨S2x1600000, .i32⟩ : BufTy).Contents (Elt Ideal))
    (W10 W11 : FVec Ideal S64x64 .f32) (b1 : FVec Ideal S64 .f32) (Wx0 Wx1 : FVec Ideal S64x64 .f32) (bx : FVec Ideal S64 .f32)
    (W20 W21 : FVec Ideal S64x16 .f32) (b2 : FVec Ideal S16 .f32) : FVec Ideal S100000x16 .f32 :=
  netOn (edgeRow adj) (edgeCol adj) (edgeW (edgeRow adj) (edgeCol adj)) x W10 W11 b1 Wx0 Wx1 bx W20 W21 b2

end Cert.KernelIdeal.Graph

end
-- ==== Proof.KernelValue.lean ====
/-
  The idealized kernel's result as one function of its arguments.

  The program is a fold through eight segments. Before the first region the host operations compute, from the edge list
  alone, the edges' rows, columns and weights, and from them and the node features the first aggregate; the first region
  leaves the first hidden layer. The host operations before the second region read the edges' rows, columns and weights
  again, untouched since, and aggregate the first hidden layer; the second region leaves the second hidden layer; the
  same once more, and the third region leaves the result. A buffer that no operation of a stretch writes, and that is
  no region's array, holds at every later boundary what it held before: that is how the edge data and the later
  layers' parameters reach the stretch or region that reads them. Each boundary's contents are stated over the named
  pieces (`edgeRow`, `edgeCol`, `edgeW`, `agg`, `hidden`, `last`); nothing is opened.
-/
import proofs.«117352_j15839839387779_1_alg».proof.Proof.Gen.KernelIdeal.Frame
import proofs.«117352_j15839839387779_1_alg».proof.Proof.Region0
import proofs.«117352_j15839839387779_1_alg».proof.Proof.Region1
import proofs.«117352_j15839839387779_1_alg».proof.Proof.Region2
import proofs.«117352_j15839839387779_1_alg».proof.Proof.GraphOps
import Idealize.ShloMosaic.Lib.StableHlo.Run

set_option maxRecDepth 16384

noncomputable section

namespace Cert.KernelIdeal.NetValue

open Idealize.ShloMosaic Idealize.ShloMosaic.TcCoe Idealize.ShloMosaic.ValueIdx Idealize.SL.Sem
open Cert.KernelIdeal Cert.KernelIdeal.Gen Cert.KernelIdeal.Graph Cert.GraphLayer Cert.Cheb

variable (m : (ℓ : Loc nD τ sig) → Buf (Elt Ideal) ℓ) (ρ : Dev nD → PrngReg) (c : Dev nD)

/-! ## What each stretch of host operations writes -/

abbrev wr0 : List (Ref sig .tc) := [main_v0, main_v1, main_v2, main_v3, main_cst, main_v4, main_cst_0, main_v5, main_v6, main_v7,
  main_cst_1, main_v8, main_v9, main_cst_2, main_v10, main_v11, main_v12, main_cst_3]
abbrev wr0_1 : List (Ref sig .tc) := [main_call0_v0, main_call0_v1, main_v13]
abbrev wr0_2 : List (Ref sig .tc) := [main_c, main_v14, main_v15, main_c_4, main_v16, main_v17, main_v18, main_v19, main_v20, main_v21,
  main_c_5, main_v22, main_v23, main_c_6, main_v24, main_v25, main_v26, main_v27, main_v28, main_v29, main_c_7, main_v30, main_v31,
  main_c_8, main_v32, main_v33, main_v34, main_v35, main_v36, main_v37, main_v38, main_v39, main_cst_9, main_v40, main_v41, main_v42,
  main_v43]
abbrev wr1 : List (Ref sig .tc) := [main_c_10, main_v45, main_v46, main_c_11, main_v47, main_v48, main_v49, main_v50, main_v51,
  main_v52, main_v53, main_v54, main_cst_12, main_v55, main_v56, main_v57, main_v58]
abbrev wr2 : List (Ref sig .tc) := [main_c_13, main_v60, main_v61, main_c_14, main_v62, main_v63, main_v64, main_v65, main_v66,
  main_v67, main_v68, main_v69, main_cst_15, main_v70, main_v71, main_v72, main_v73]

local macro "writes_sub" : tactic => `(tactic| (
  simp only [List.Forall]
  repeat' apply And.intro
  all_goals (simp only [StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]; exact List.mem_map_of_mem (by decide))))

theorem wr0_sub : (hostOps0 (F := Ideal)).Forall fun op => op.writes ⊆ (wr0.map (Proc.devRef (τ := τ) .tc)).toFinset := by writes_sub
theorem wr0_1_sub : (hostOps0_1 (F := Ideal)).Forall fun op => op.writes ⊆ (wr0_1.map (Proc.devRef (τ := τ) .tc)).toFinset := by writes_sub
theorem wr0_2_sub : (hostOps0_2 (F := Ideal)).Forall fun op => op.writes ⊆ (wr0_2.map (Proc.devRef (τ := τ) .tc)).toFinset := by writes_sub
theorem wr1_sub : (hostOps1 (F := Ideal)).Forall fun op => op.writes ⊆ (wr1.map (Proc.devRef (τ := τ) .tc)).toFinset := by writes_sub
theorem wr2_sub : (hostOps2 (F := Ideal)).Forall fun op => op.writes ⊆ (wr2.map (Proc.devRef (τ := τ) .tc)).toFinset := by writes_sub

/-- A buffer none of the operations before the first region writes holds its launch contents there. -/
theorem keep0 (r : Ref sig .tc) (h0 : r ∉ wr0) (h1 : r ∉ wr0_1) (h2 : r ∉ wr0_2) :
    W3 m ρ c (Proc.devRef .tc r) = m ((c : Thread nD τ).loc r) :=
  (StableHlo.after_of_writes_sub hostOps0_2 _ wr0_2_sub h2).trans
    ((StableHlo.after_of_writes_sub hostOps0_1 _ wr0_1_sub h1).trans (StableHlo.after_of_writes_sub hostOps0 _ wr0_sub h0))
/-- A buffer the operations between the first two regions do not write is as the first region left it. -/
theorem keep1 (r : Ref sig .tc) (h : r ∉ wr1) : W5 m ρ c (Proc.devRef .tc r) = W4 m ρ c (Proc.devRef .tc r) :=
  StableHlo.after_of_writes_sub hostOps1 _ wr1_sub h
/-- A buffer the operations between the last two regions do not write is as the second region left it. -/
theorem keep2 (r : Ref sig .tc) (h : r ∉ wr2) : W7 m ρ c (Proc.devRef .tc r) = W6 m ρ c (Proc.devRef .tc r) :=
  StableHlo.after_of_writes_sub hostOps2 _ wr2_sub h

/-! ## The named values of this memory -/

abbrev rowOf := edgeRow (F := Ideal) (m ((c : Thread nD τ).loc main_arg1))
abbrev colOf := edgeCol (F := Ideal) (m ((c : Thread nD τ).loc main_arg1))
abbrev wOf := edgeW (rowOf m c) (colOf m c)
abbrev h1Of := hidden (rowOf m c) (colOf m c) (wOf m c) (m ((c : Thread nD τ).loc main_arg0)) (m ((c : Thread nD τ).loc main_arg2)) (m ((c : Thread nD τ).loc main_arg3)) (m ((c : Thread nD τ).loc main_arg4))
abbrev h2Of := hidden (rowOf m c) (colOf m c) (wOf m c) (h1Of m c) (m ((c : Thread nD τ).loc main_arg5)) (m ((c : Thread nD τ).loc main_arg6)) (m ((c : Thread nD τ).loc main_arg7))

/-! ## Before and through the first region -/

theorem pre_row : W3 m ρ c (Proc.devRef .tc main_v1) = rowOf m c := by
  show StableHlo.after hostOps0_2 (StableHlo.after hostOps0_1 (StableHlo.after hostOps0 (W0 m ρ c))) _ = _
  after_results_simp <;> rfl
theorem pre_col : W3 m ρ c (Proc.devRef .tc main_v3) = colOf m c := by
  show StableHlo.after hostOps0_2 (StableHlo.after hostOps0_1 (StableHlo.after hostOps0 (W0 m ρ c))) _ = _
  after_results_simp <;> rfl
/-! The weights and the first aggregate, stage by stage: the operations up to the degree's inverse root, the three
    operations of the select that zeroes it where the degree is not positive, and the rest, each stage read from the
    contents the stage before it left, whatever they are. -/

theorem at1_row : W1 m ρ c (Proc.devRef .tc main_v1) = rowOf m c := by
  show StableHlo.after hostOps0 (W0 m ρ c) _ = _
  after_results_simp <;> rfl
theorem at1_col : W1 m ρ c (Proc.devRef .tc main_v3) = colOf m c := by
  show StableHlo.after hostOps0 (W0 m ρ c) _ = _
  after_results_simp <;> rfl
theorem at1_pos : W1 m ρ c (Proc.devRef .tc main_v9)
    = cmpf (F := Ideal) .ogt (deg (rowOf m c)) (broadcastInDim S100000 ![] bcast_S_S100000 (constant S_ .f32 0x00000000#32)) := by
  show StableHlo.after hostOps0 (W0 m ρ c) _ = _
  after_results_simp <;> rfl
theorem at1_root : W1 m ρ c (Proc.devRef .tc main_v12)
    = Host.rsqrt (maximumf (deg (rowOf m c)) (broadcastInDim S100000 ![] bcast_S_S100000 (constant S_ .f32 0x2B8CBCCC#32))) := by
  show StableHlo.after hostOps0 (W0 m ρ c) _ = _
  after_results_simp <;> rfl
theorem at1_zero : W1 m ρ c (Proc.devRef .tc main_cst_3) = constant (F := Ideal) S_ .f32 0x00000000#32 := by
  show StableHlo.after hostOps0 (W0 m ρ c) _ = _
  after_results_simp <;> rfl

/-- The select, from whatever the operations before it left. -/
theorem select_eq : W2 m ρ c (Proc.devRef .tc main_v13)
    = select (W1 m ρ c (Proc.devRef .tc main_v9)) (W1 m ρ c (Proc.devRef .tc main_v12))
        (broadcastInDim S100000 ![] bcast_S_S100000 (id (W1 m ρ c (Proc.devRef .tc main_cst_3)))) := by
  show StableHlo.after hostOps0_1 (W1 m ρ c) _ = _
  generalize W1 m ρ c = V1
  after_results_simp <;> rfl

theorem at2_root : W2 m ρ c (Proc.devRef .tc main_v13) = invRootDeg (rowOf m c) := by
  rw [select_eq, at1_pos, at1_root, at1_zero]
  rfl
theorem at2_row : W2 m ρ c (Proc.devRef .tc main_v1) = rowOf m c :=
  (StableHlo.after_of_writes_sub hostOps0_1 _ wr0_1_sub (by decide)).trans (at1_row m ρ c)
theorem at2_col : W2 m ρ c (Proc.devRef .tc main_v3) = colOf m c :=
  (StableHlo.after_of_writes_sub hostOps0_1 _ wr0_1_sub (by decide)).trans (at1_col m ρ c)
theorem at2_x : W2 m ρ c (Proc.devRef .tc main_arg0) = m ((c : Thread nD τ).loc main_arg0) :=
  (StableHlo.after_of_writes_sub hostOps0_1 _ wr0_1_sub (by decide)).trans (StableHlo.after_of_writes_sub hostOps0 _ wr0_sub (by decide))

/-- The weights, from whatever the operations before the last stretch left. -/
theorem w_eq : W3 m ρ c (Proc.devRef .tc main_v29)
    = ((mulf (Host.negf (Host.gather gather_S100000_S1600000x1_S1600000_n_0_n_n_0_1_1 (W2 m ρ c (Proc.devRef .tc main_v13)) (wrap (W2 m ρ c (Proc.devRef .tc main_v1)))))
      (Host.gather gather_S100000_S1600000x1_S1600000_n_0_n_n_0_1_1 (W2 m ρ c (Proc.devRef .tc main_v13)) (wrap (W2 m ρ c (Proc.devRef .tc main_v3))))) : FVec Ideal S1600000 .f32) := by
  show StableHlo.after hostOps0_2 (W2 m ρ c) _ = _
  generalize W2 m ρ c = V2
  after_results_simp
  unfold Cert.KernelIdeal.Graph.wrap
  rfl
theorem pre_w : W3 m ρ c (Proc.devRef .tc main_v29) = wOf m c := by
  rw [w_eq, at2_root, at2_row, at2_col]
  rfl

/-- The first aggregate, from whatever the operations before the last stretch left. -/
theorem agg_eq : W3 m ρ c (Proc.devRef .tc main_v42)
    = agg (W2 m ρ c (Proc.devRef .tc main_v1)) (W2 m ρ c (Proc.devRef .tc main_v3))
        (mulf (Host.negf (Host.gather gather_S100000_S1600000x1_S1600000_n_0_n_n_0_1_1 (W2 m ρ c (Proc.devRef .tc main_v13)) (wrap (W2 m ρ c (Proc.devRef .tc main_v1)))))
      (Host.gather gather_S100000_S1600000x1_S1600000_n_0_n_n_0_1_1 (W2 m ρ c (Proc.devRef .tc main_v13)) (wrap (W2 m ρ c (Proc.devRef .tc main_v3)))))
        (W2 m ρ c (Proc.devRef .tc main_arg0)) := by
  show StableHlo.after hostOps0_2 (W2 m ρ c) _ = _
  generalize W2 m ρ c = V2
  after_results_simp
  unfold Cert.KernelIdeal.Graph.agg Cert.KernelIdeal.Graph.wrap
  rfl
theorem pre_agg : W3 m ρ c (Proc.devRef .tc main_v42) = agg (rowOf m c) (colOf m c) (wOf m c) (m ((c : Thread nD τ).loc main_arg0)) := by
  rw [agg_eq, at2_root, at2_row, at2_col, at2_x]
  rfl
theorem pre_bias : W3 m ρ c (Proc.devRef .tc main_v43) = shapeCast S1x64 (m ((c : Thread nD τ).loc main_arg4)) shapeCasts_S64_S1x64 := by
  show StableHlo.after hostOps0_2 (StableHlo.after hostOps0_1 (StableHlo.after hostOps0 (W0 m ρ c))) _ = _
  after_results_simp <;> rfl

/-- The first region leaves the first hidden layer. -/
theorem hid1 : W4 m ρ c (Proc.devRef .tc main_v44) = h1Of m c := by
  refine (W4_arr m ρ c 5).trans ((Layer0.final (V3 m ρ) c).trans ?_)
  show ramp (cheb (M := 100000) (K := 64) (N := 64) (W3 m ρ c (Proc.devRef .tc main_arg0)) (W3 m ρ c (Proc.devRef .tc main_v42))
    (W3 m ρ c (Proc.devRef .tc main_arg2)) (W3 m ρ c (Proc.devRef .tc main_arg3)) (W3 m ρ c (Proc.devRef .tc main_v43))) = _
  rw [keep0 m ρ c main_arg0 (by decide) (by decide) (by decide), pre_agg, keep0 m ρ c main_arg2 (by decide) (by decide) (by decide),
    keep0 m ρ c main_arg3 (by decide) (by decide) (by decide), pre_bias]
  rfl

/-! ## What reaches the later stretches untouched -/

theorem at4_row : W4 m ρ c (Proc.devRef .tc main_v1) = rowOf m c := (W4_of_ne m ρ c main_v1 (by decide)).trans (pre_row m ρ c)
theorem at4_col : W4 m ρ c (Proc.devRef .tc main_v3) = colOf m c := (W4_of_ne m ρ c main_v3 (by decide)).trans (pre_col m ρ c)
theorem at4_w : W4 m ρ c (Proc.devRef .tc main_v29) = wOf m c := (W4_of_ne m ρ c main_v29 (by decide)).trans (pre_w m ρ c)
theorem at4_arg (r : Ref sig .tc) (hr : ∀ w, Pipeline.arrRef spec0 w ≠ r) (h0 : r ∉ wr0) (h1 : r ∉ wr0_1) (h2 : r ∉ wr0_2) :
    W4 m ρ c (Proc.devRef .tc r) = m ((c : Thread nD τ).loc r) := (W4_of_ne m ρ c r hr).trans (keep0 m ρ c r h0 h1 h2)

/-! ## Between the first two regions, and through the second -/

theorem s1_agg : W5 m ρ c (Proc.devRef .tc main_v57)
    = agg (W4 m ρ c (Proc.devRef .tc main_v1)) (W4 m ρ c (Proc.devRef .tc main_v3)) (W4 m ρ c (Proc.devRef .tc main_v29)) (W4 m ρ c (Proc.devRef .tc main_v44)) := by
  show StableHlo.after hostOps1 (W4 m ρ c) _ = _
  after_results_simp <;> rfl
theorem s1_bias : W5 m ρ c (Proc.devRef .tc main_v58) = shapeCast S1x64 (W4 m ρ c (Proc.devRef .tc main_arg7)) shapeCasts_S64_S1x64 := by
  show StableHlo.after hostOps1 (W4 m ρ c) _ = _
  after_results_simp <;> rfl
theorem agg1 : W5 m ρ c (Proc.devRef .tc main_v57) = agg (rowOf m c) (colOf m c) (wOf m c) (h1Of m c) := by
  rw [s1_agg, at4_row, at4_col, at4_w, hid1]
theorem bias1 : W5 m ρ c (Proc.devRef .tc main_v58) = shapeCast S1x64 (m ((c : Thread nD τ).loc main_arg7)) shapeCasts_S64_S1x64 := by
  rw [s1_bias, at4_arg m ρ c main_arg7 (by decide) (by decide) (by decide) (by decide)]

/-- The second region leaves the second hidden layer. -/
theorem hid2 : W6 m ρ c (Proc.devRef .tc main_v59) = h2Of m c := by
  refine (W6_arr m ρ c 5).trans ((Layer1.final (V5 m ρ) c).trans ?_)
  show ramp (cheb (M := 100000) (K := 64) (N := 64) (W5 m ρ c (Proc.devRef .tc main_v44)) (W5 m ρ c (Proc.devRef .tc main_v57))
    (W5 m ρ c (Proc.devRef .tc main_arg5)) (W5 m ρ c (Proc.devRef .tc main_arg6)) (W5 m ρ c (Proc.devRef .tc main_v58))) = _
  rw [keep1 m ρ c main_v44 (by decide), hid1, agg1, keep1 m ρ c main_arg5 (by decide),
    at4_arg m ρ c main_arg5 (by decide) (by decide) (by decide) (by decide), keep1 m ρ c main_arg6 (by decide),
    at4_arg m ρ c main_arg6 (by decide) (by decide) (by decide) (by decide), bias1]
  rfl

theorem at6_row : W6 m ρ c (Proc.devRef .tc main_v1) = rowOf m c :=
  (W6_of_ne m ρ c main_v1 (by decide)).trans ((keep1 m ρ c main_v1 (by decide)).trans (at4_row m ρ c))
theorem at6_col : W6 m ρ c (Proc.devRef .tc main_v3) = colOf m c :=
  (W6_of_ne m ρ c main_v3 (by decide)).trans ((keep1 m ρ c main_v3 (by decide)).trans (at4_col m ρ c))
theorem at6_w : W6 m ρ c (Proc.devRef .tc main_v29) = wOf m c :=
  (W6_of_ne m ρ c main_v29 (by decide)).trans ((keep1 m ρ c main_v29 (by decide)).trans (at4_w m ρ c))
theorem at6_arg (r : Ref sig .tc) (hr1 : ∀ w, Pipeline.arrRef spec1 w ≠ r) (hk : r ∉ wr1) (hr : ∀ w, Pipeline.arrRef spec0 w ≠ r)
    (h0 : r ∉ wr0) (h1 : r ∉ wr0_1) (h2 : r ∉ wr0_2) : W6 m ρ c (Proc.devRef .tc r) = m ((c : Thread nD τ).loc r) :=
  (W6_of_ne m ρ c r hr1).trans ((keep1 m ρ c r hk).trans (at4_arg m ρ c r hr h0 h1 h2))

/-! ## Between the last two regions, and through the third -/

theorem s2_agg : W7 m ρ c (Proc.devRef .tc main_v72)
    = agg (W6 m ρ c (Proc.devRef .tc main_v1)) (W6 m ρ c (Proc.devRef .tc main_v3)) (W6 m ρ c (Proc.devRef .tc main_v29)) (W6 m ρ c (Proc.devRef .tc main_v59)) := by
  show StableHlo.after hostOps2 (W6 m ρ c) _ = _
  after_results_simp <;> rfl
theorem s2_bias : W7 m ρ c (Proc.devRef .tc main_v73) = shapeCast S1x16 (W6 m ρ c (Proc.devRef .tc main_arg10)) shapeCasts_S16_S1x16 := by
  show StableHlo.after hostOps2 (W6 m ρ c) _ = _
  after_results_simp <;> rfl
theorem agg2 : W7 m ρ c (Proc.devRef .tc main_v72) = agg (rowOf m c) (colOf m c) (wOf m c) (h2Of m c) := by
  rw [s2_agg, at6_row, at6_col, at6_w, hid2]
theorem bias2 : W7 m ρ c (Proc.devRef .tc main_v73) = shapeCast S1x16 (m ((c : Thread nD τ).loc main_arg10)) shapeCasts_S16_S1x16 := by
  rw [s2_bias, at6_arg m ρ c main_arg10 (by decide) (by decide) (by decide) (by decide) (by decide) (by decide)]

/-- THE RESULT: the third region leaves the network of the eleven arguments. -/
theorem result : W8 m ρ c (Proc.devRef .tc main_v74)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) (m ((c : Thread nD τ).loc main_arg10)) := by
  refine (W8_arr m ρ c 5).trans ((Layer2.final (V7 m ρ) c).trans ?_)
  show cheb (M := 100000) (K := 64) (N := 16) (W7 m ρ c (Proc.devRef .tc main_v59)) (W7 m ρ c (Proc.devRef .tc main_v72))
    (W7 m ρ c (Proc.devRef .tc main_arg8)) (W7 m ρ c (Proc.devRef .tc main_arg9)) (W7 m ρ c (Proc.devRef .tc main_v73)) = _
  rw [keep2 m ρ c main_v59 (by decide), hid2, agg2, keep2 m ρ c main_arg8 (by decide),
    at6_arg m ρ c main_arg8 (by decide) (by decide) (by decide) (by decide) (by decide) (by decide), keep2 m ρ c main_arg9 (by decide),
    at6_arg m ρ c main_arg9 (by decide) (by decide) (by decide) (by decide) (by decide) (by decide), bias2]
  rfl

end Cert.KernelIdeal.NetValue

end
-- ==== Proof.RefValue.lean ====
/-
  The idealized reference's result as the same function of its arguments.

  The reference computes each layer on whole arrays: the host's two products of the features and of their aggregate with
  the two weight matrices, added; the bias vector made a row, broadcast down the rows and added; for a hidden layer the
  maximum with zero. Its aggregate writes each scaled row as weight · (feature row). Read entry by entry, the two
  products summed plus the bias row are the layer `cheb` of the features and their aggregate (the row is the bias vector
  reshaped), the maximum with the broadcast zero is `ramp`, and the aggregate is the one whose scaled rows are written
  (feature row) · weight, because the product of extended reals commutes. So the reference's composed term is the
  network `net` of the eleven arguments.
-/
import proofs.«117352_j15839839387779_1_alg».proof.Proof.ReferenceRunPatched
import proofs.«117352_j15839839387779_1_alg».proof.Proof.GraphOps

set_option maxRecDepth 16384

noncomputable section

namespace Cert.ReferenceIdeal.NetValue

open Idealize.ShloMosaic Idealize.ShloMosaic.TcCoe Idealize.ShloMosaic.ValueIdx Idealize.SL.Sem
open Cert.KernelIdeal Cert.KernelIdeal.Gen Cert.KernelIdeal.Graph Cert.GraphLayer Cert.Cheb

/-! ## The reference's spelling of a layer, over the named pieces -/

/-- A hidden layer on whole arrays. -/
def hostHidden (row col : (⟨S1600000, .i32⟩ : BufTy).Contents (Elt Ideal)) (w : FVec Ideal S1600000 .f32)
    (h : FVec Ideal S100000x64 .f32) (W0 W1 : FVec Ideal S64x64 .f32) (b : FVec Ideal S64 .f32) : FVec Ideal S100000x64 .f32 :=
  maximumf
    (addf (addf (Host.dotGeneral (DotDims.plain 100000 64 64) none h W0)
        (Host.dotGeneral (DotDims.plain 100000 64 64) none (aggFlip row col w h) W1))
      (broadcastInDim S100000x64 ![0, 1] Cert.ReferenceIdeal.Gen.bcast_S1x64_S100000x64_0_1
        (broadcastInDim S1x64 ![1] Cert.ReferenceIdeal.Gen.bcast_S64_S1x64_1 b)))
    (broadcastInDim S100000x64 ![] bcast_S_S100000x64 (constant S_ .f32 0x00000000#32))

/-- The last layer on whole arrays. -/
def hostLast (row col : (⟨S1600000, .i32⟩ : BufTy).Contents (Elt Ideal)) (w : FVec Ideal S1600000 .f32)
    (h : FVec Ideal S100000x64 .f32) (W0 W1 : FVec Ideal S64x16 .f32) (b : FVec Ideal S16 .f32) : FVec Ideal S100000x16 .f32 :=
  addf (addf (Host.dotGeneral (DotDims.plain 100000 64 16) none h W0)
      (Host.dotGeneral (DotDims.plain 100000 64 16) none (aggFlip row col w h) W1))
    (broadcastInDim S100000x16 ![0, 1] Cert.ReferenceIdeal.Gen.bcast_S1x16_S100000x16_0_1
      (broadcastInDim S1x16 ![1] Cert.ReferenceIdeal.Gen.bcast_S16_S1x16_1 b))

/-- The reference's network over given edge rows, columns and weights. -/
def netHostOn (row col : (⟨S1600000, .i32⟩ : BufTy).Contents (Elt Ideal)) (w : FVec Ideal S1600000 .f32)
    (x : FVec Ideal S100000x64 .f32) (W10 W11 : FVec Ideal S64x64 .f32) (b1 : FVec Ideal S64 .f32)
    (Wx0 Wx1 : FVec Ideal S64x64 .f32) (bx : FVec Ideal S64 .f32) (W20 W21 : FVec Ideal S64x16 .f32) (b2 : FVec Ideal S16 .f32) :
    FVec Ideal S100000x16 .f32 :=
  hostLast row col w (hostHidden row col w (hostHidden row col w x W10 W11 b1) Wx0 Wx1 bx) W20 W21 b2

/-- The reference's network of the eleven arguments. -/
def netHost (x : FVec Ideal S100000x64 .f32) (adj : (⟨S2x1600000, .i32⟩ : BufTy).Contents (Elt Ideal))
    (W10 W11 : FVec Ideal S64x64 .f32) (b1 : FVec Ideal S64 .f32) (Wx0 Wx1 : FVec Ideal S64x64 .f32) (bx : FVec Ideal S64 .f32)
    (W20 W21 : FVec Ideal S64x16 .f32) (b2 : FVec Ideal S16 .f32) : FVec Ideal S100000x16 .f32 :=
  netHostOn (edgeRow adj) (edgeCol adj) (edgeW (edgeRow adj) (edgeCol adj)) x W10 W11 b1 Wx0 Wx1 bx W20 W21 b2

/-! ## Each layer's two spellings are one function -/

theorem hostHidden_eq (row col : (⟨S1600000, .i32⟩ : BufTy).Contents (Elt Ideal)) (w : FVec Ideal S1600000 .f32)
    (h : FVec Ideal S100000x64 .f32) (W0 W1 : FVec Ideal S64x64 .f32) (b : FVec Ideal S64 .f32) :
    hostHidden row col w h W0 W1 b = hidden row col w h W0 W1 b := by
  unfold hostHidden Cert.KernelIdeal.Graph.hidden
  rw [host_ramp, host_cheb (DotDims.plain 100000 64 64) rfl Cert.ReferenceIdeal.Gen.bcast_S64_S1x64_1
    Cert.ReferenceIdeal.Gen.bcast_S1x64_S100000x64_0_1 shapeCasts_S64_S1x64, aggFlip_eq]

theorem hostLast_eq (row col : (⟨S1600000, .i32⟩ : BufTy).Contents (Elt Ideal)) (w : FVec Ideal S1600000 .f32)
    (h : FVec Ideal S100000x64 .f32) (W0 W1 : FVec Ideal S64x16 .f32) (b : FVec Ideal S16 .f32) :
    hostLast row col w h W0 W1 b = last row col w h W0 W1 b := by
  unfold hostLast Cert.KernelIdeal.Graph.last
  rw [host_cheb (DotDims.plain 100000 64 16) rfl Cert.ReferenceIdeal.Gen.bcast_S16_S1x16_1
    Cert.ReferenceIdeal.Gen.bcast_S1x16_S100000x16_0_1 shapeCasts_S16_S1x16, aggFlip_eq]

theorem netHost_eq (x : FVec Ideal S100000x64 .f32) (adj : (⟨S2x1600000, .i32⟩ : BufTy).Contents (Elt Ideal))
    (W10 W11 : FVec Ideal S64x64 .f32) (b1 : FVec Ideal S64 .f32) (Wx0 Wx1 : FVec Ideal S64x64 .f32) (bx : FVec Ideal S64 .f32)
    (W20 W21 : FVec Ideal S64x16 .f32) (b2 : FVec Ideal S16 .f32) :
    netHost x adj W10 W11 b1 Wx0 Wx1 bx W20 W21 b2 = net x adj W10 W11 b1 Wx0 Wx1 bx W20 W21 b2 := by
  unfold netHost Cert.KernelIdeal.Graph.net netHostOn Cert.KernelIdeal.Graph.netOn
  rw [hostHidden_eq, hostHidden_eq, hostLast_eq]

/-! ## The reference's composed term -/

variable (m : (ℓ : Loc Cert.ReferenceIdeal.nD Cert.ReferenceIdeal.τ Cert.ReferenceIdeal.sig) → Buf (Elt Ideal) ℓ)
  (c : Dev Cert.ReferenceIdeal.nD)

/-- The run's composed term is the reference's network of the argument arrays: the same operations in the same order,
    the shared pieces named. -/
theorem res_eq_host : Cert.ReferenceIdeal.ValueP.res_main_v88 (F := Ideal) m c
    = netHost (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
        (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) := by
  unfold Cert.ReferenceIdeal.ValueP.res_main_v88
  rfl

/-- THE RESULT: the run's composed term is the network of the eleven arguments. -/
theorem result : Cert.ReferenceIdeal.ValueP.res_main_v88 (F := Ideal) m c
    = net (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
        (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) :=
  (res_eq_host m c).trans (netHost_eq _ _ _ _ _ _ _ _ _ _ _)

end Cert.ReferenceIdeal.NetValue

end
-- ==== Proof.lean ====
/-
  Three stacked Chebyshev graph-convolution layers of order two: the block-by-block program against the whole-array one.

  Both programs compute, from the edge list alone, every edge's weight: minus the product of the inverse-root degrees of
  its two nodes, the off-diagonal entry of the symmetrically normalised Laplacian. A layer takes node features h, forms
  their aggregate t along the edges (every edge's column-node row of h, scaled by the edge's weight, added into the row
  of its row node), and returns h · W0 + t · W1 + b; the two hidden layers take the maximum with zero on top, the last
  one has 16 columns and no maximum. The result is the network `Cert.KernelIdeal.Graph.net` of the eleven arguments.

  One program computes each layer's dense part in ten blocks of 10000 rows, the factors of each product rounded to
  bf16 (the identity at the ideal values) and multiplied into a zero accumulator; the other computes it on the whole
  arrays with the host's products. An entry of a layer in row a reads row a of the features and of the aggregate only,
  so the ten blocks of rows are the rows of the whole-array layer, and they tile the array. The one difference that is
  not a matter of spelling is the scaled row of an edge, written (feature row) · weight by one program and
  weight · (feature row) by the other: the product of extended reals commutes, with no condition of finiteness, so the
  precondition is never opened.

  The idealization rewrote no operation, so that conjunct is `True`. The three frame conjuncts are the generated frames
  of the two kernels and the reference's run with its result dropped.
-/
import proofs.«117352_j15839839387779_1_alg».proof.Defs
import proofs.«117352_j15839839387779_1_alg».proof.Proof.Gen.Kernel
import proofs.«117352_j15839839387779_1_alg».proof.Proof.Gen.Kernel.Skeleton
import proofs.«117352_j15839839387779_1_alg».proof.Proof.Gen.Kernel.Launch
import proofs.«117352_j15839839387779_1_alg».proof.Proof.Gen.Kernel.Points
import proofs.«117352_j15839839387779_1_alg».proof.Proof.Gen.Kernel.Frame
import proofs.«117352_j15839839387779_1_alg».proof.Proof.Gen.KernelIdeal
import proofs.«117352_j15839839387779_1_alg».proof.Proof.Gen.KernelIdeal.Skeleton
import proofs.«117352_j15839839387779_1_alg».proof.Proof.Gen.KernelIdeal.Launch
import proofs.«117352_j15839839387779_1_alg».proof.Proof.Gen.KernelIdeal.Points
import proofs.«117352_j15839839387779_1_alg».proof.Proof.Gen.KernelIdeal.Frame
import proofs.«117352_j15839839387779_1_alg».proof.Proof.Gen.ReferenceIdeal
import proofs.«117352_j15839839387779_1_alg».proof.Proof.Gen.Pre_finite_inputs
import proofs.«117352_j15839839387779_1_alg».proof.Proof.ReferenceRunPatched
import proofs.«117352_j15839839387779_1_alg».proof.Proof.KernelRun
import proofs.«117352_j15839839387779_1_alg».proof.Proof.KernelValue
import proofs.«117352_j15839839387779_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the network of the argument arrays in their result: the block-by-block one by its run and
    the fold of its segments, the whole-array one by its run and its composed term; the reference's arguments are the
    kernel's. -/
theorem algebraic : Cert.algebraic_KernelIdeal_ReferenceIdeal := by
  intro m ρ m' ρ' _ hagree
  refine ⟨fun c => Cert.KernelIdeal.Graph.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.NetValue.result m ρ c), (h c).2⟩)
      (Cert.KernelIdeal.ValueRun.run (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10⟩ := hagree c
    rw [Cert.ReferenceIdeal.NetValue.result m' c, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
